-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x112 : Shape := ⟨2, ![100000, 112]⟩
abbrev S1000000 : Shape := ⟨1, ![1000000]⟩
abbrev S512x512 : Shape := ⟨2, ![512, 512]⟩
abbrev S512x50 : Shape := ⟨2, ![512, 50]⟩
abbrev S512x1 : Shape := ⟨2, ![512, 1]⟩
abbrev S2x112x112 : Shape := ⟨3, ![2, 112, 112]⟩
abbrev S_ : Shape := ⟨0, ![]⟩

class Facts : Prop where
  bcast_S_S100000x112 : S_.BroadcastsInDim S100000x112 (![] : Fin 0 → Fin S100000x112.rank)
  reducesTo_S100000x112_S_d0_1 : S100000x112.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S2x112x112 : S_.BroadcastsInDim S2x112x112 (![] : Fin 0 → Fin S2x112x112.rank)
  reducesTo_S2x112x112_S_d0_1_2 : S2x112x112.ReducesTo [0, 1, 2] S_

variable [Facts]

def fn_part1 {F : FTy → Type} [FloatOps F] (main_arg7 : FVec F S512x1 .f32) (main_arg8 : FVec F S2x112x112 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x1 .f32 := Host.absf main_arg7
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S2x112x112 .f32 := Host.absf main_arg8
  let main_cst_8 : FVec F S_ .f32 := constant S_ .f32 0x7F800000#32
  let main_v25 : FVec F S2x112x112 .f32 := broadcastInDim S2x112x112 ![] bcast_S_S2x112x112 main_cst_8
  let main_v26 : IVec S2x112x112 1 := cmpf .olt main_v24 main_v25
  let main_c_9 : IVec S_ 1 := constantI S_ 1 1#1
  let main_v27 : IVec S_ 1 := (fun x v => Host.reduce IntOp.andi x v reducesTo_S2x112x112_S_d0_1_2 h_S_) main_v26 main_c_9
  let main_v28 : IVec S_ 1 := andi main_v23 main_v27
  main_v28

def fn {F : FTy → Type} [FloatOps F] (main_arg0 : FVec F S100000x112 .f32) (main_arg1 : FVec F S1000000 .f32) (main_arg2 : IVec S1000000 32) (main_arg3 : IVec S1000000 32) (main_arg4 : FVec F S512x512 .f32) (main_arg5 : FVec F S512x512 .f32) (main_arg6 : IVec S512x50 32) (main_arg7 : FVec F S512x1 .f32) (main_arg8 : FVec F S2x112x112 .f32) : IVec S_ 1 :=
  let main_v0 : FVec F S100000x112 .f32 := Host.absf main_arg0
  let main_cst : FVec F S_ .f32 := constant S_ .f32 0x7F800000#32
  let main_v1 : FVec F S100000x112 .f32 := broadcastInDim S100000x112 ![] bcast_S_S100000x112 main_cst
  let main_v2 : IVec S100000x112 1 := cmpf .olt main_v0 main_v1
  let main_c : IVec S_ 1 := constantI S_ 1 1#1
  let main_v3 : IVec S_ 1 := (fun x v => Host.reduce IntOp.andi x v reducesTo_S100000x112_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_v13 main_v16
-- ==== Kernel.lean ====
abbrev S100000x112 : Shape := ⟨2, ![100000, 112]⟩
abbrev S1000000 : Shape := ⟨1, ![1000000]⟩
abbrev S512x512 : Shape := ⟨2, ![512, 512]⟩
abbrev S512x50 : Shape := ⟨2, ![512, 50]⟩
abbrev S512x1 : Shape := ⟨2, ![512, 1]⟩
abbrev S2x112x112 : Shape := ⟨3, ![2, 112, 112]⟩
abbrev S_ : Shape := ⟨0, ![]⟩
abbrev S1015808 : Shape := ⟨1, ![1015808]⟩
abbrev S1015808x1 : Shape := ⟨2, ![1015808, 1]⟩
abbrev S1015808x112 : Shape := ⟨2, ![1015808, 112]⟩
abbrev S16384 : Shape := ⟨1, ![16384]⟩
abbrev S16384x112 : Shape := ⟨2, ![16384, 112]⟩
abbrev S16384x1 : Shape := ⟨2, ![16384, 1]⟩
abbrev S5000x112 : Shape := ⟨2, ![5000, 112]⟩
abbrev S1x112 : Shape := ⟨2, ![1, 112]⟩
abbrev S100001x112 : Shape := ⟨2, ![100001, 112]⟩
abbrev S512x50x1 : Shape := ⟨3, ![512, 50, 1]⟩
abbrev S512x50x112 : Shape := ⟨3, ![512, 50, 112]⟩
abbrev S512x112 : Shape := ⟨2, ![512, 112]⟩
abbrev S1x112x112 : Shape := ⟨3, ![1, 112, 112]⟩
abbrev S112x112 : Shape := ⟨2, ![112, 112]⟩
abbrev S512 : Shape := ⟨1, ![512]⟩

abbrev nBuf : Space → Nat
  | .hbm => 64
  | .vmem => 25
  | .smem => 0
  | _ => 0

abbrev bufTy : (tb : Table) → Fin (tcTables nBuf tb) → BufTy
  | .hbm, ⟨0, _⟩ => ⟨S100000x112, .f32⟩
  | .hbm, ⟨1, _⟩ => ⟨S1000000, .f32⟩
  | .hbm, ⟨2, _⟩ => ⟨S1000000, .i32⟩
  | .hbm, ⟨3, _⟩ => ⟨S1000000, .i32⟩
  | .hbm, ⟨4, _⟩ => ⟨S512x512, .f32⟩
  | .hbm, ⟨5, _⟩ => ⟨S512x512, .f32⟩
  | .hbm, ⟨6, _⟩ => ⟨S512x50, .i32⟩
  | .hbm, ⟨7, _⟩ => ⟨S512x1, .f32⟩
  | .hbm, ⟨8, _⟩ => ⟨S2x112x112, .f32⟩
  | .hbm, ⟨9, _⟩ => ⟨S_, .i32⟩
  | .hbm, ⟨10, _⟩ => ⟨S_, .f32⟩
  | .hbm, ⟨11, _⟩ => ⟨S1015808, .f32⟩
  | .hbm, ⟨12, _⟩ => ⟨S_, .i32⟩
  | .hbm, ⟨13, _⟩ => ⟨S_, .i32⟩
  | .hbm, ⟨14, _⟩ => ⟨S1015808, .i32⟩
  | .hbm, ⟨15, _⟩ => ⟨S_, .i32⟩
  | .hbm, ⟨16, _⟩ => ⟨S_, .i32⟩
  | .hbm, ⟨17, _⟩ => ⟨S1015808, .i32⟩
  | .hbm, ⟨18, _⟩ => ⟨S_, .i32⟩
  | .hbm, ⟨19, _⟩ => ⟨S1015808, .i32⟩
  | .hbm, ⟨20, _⟩ => ⟨S1015808, .i1⟩
  | .hbm, ⟨21, _⟩ => ⟨S_, .i32⟩
  | .hbm, ⟨22, _⟩ => ⟨S1015808, .i32⟩
  | .hbm, ⟨23, _⟩ => ⟨S1015808, .i32⟩
  | .hbm, ⟨24, _⟩ => ⟨S1015808, .i32⟩
  | .hbm, ⟨25, _⟩ => ⟨S1015808x1, .i32⟩
  | .hbm, ⟨26, _⟩ => ⟨S1015808x112, .f32⟩
  | .hbm, ⟨27, _⟩ => ⟨S1015808x112, .f32⟩
  | .hbm, ⟨28, _⟩ => ⟨S_, .f32⟩
  | .hbm, ⟨29, _⟩ => ⟨S100000x112, .f32⟩
  | .hbm, ⟨30, _⟩ => ⟨S1015808x1, .i32⟩
  | .hbm, ⟨31, _⟩ => ⟨S100000x112, .f32⟩
  | .hbm, ⟨32, _⟩ => ⟨S_, .i32⟩
  | .hbm, ⟨33, _⟩ => ⟨S1015808, .i32⟩
  | .hbm, ⟨34, _⟩ => ⟨S1015808, .i1⟩
  | .hbm, ⟨35, _⟩ => ⟨S_, .i32⟩
  | .hbm, ⟨36, _⟩ => ⟨S1015808, .i32⟩
  | .hbm, ⟨37, _⟩ => ⟨S1015808, .i32⟩
  | .hbm, ⟨38, _⟩ => ⟨S1015808, .i32⟩
  | .hbm, ⟨39, _⟩ => ⟨S1015808x1, .i32⟩
  | .hbm, ⟨40, _⟩ => ⟨S1015808x112, .f32⟩
  | .hbm, ⟨41, _⟩ => ⟨S1015808x112, .f32⟩
  | .hbm, ⟨42, _⟩ => ⟨S_, .f32⟩
  | .hbm, ⟨43, _⟩ => ⟨S100000x112, .f32⟩
  | .hbm, ⟨44, _⟩ => ⟨S1015808x1, .i32⟩
  | .hbm, ⟨45, _⟩ => ⟨S100000x112, .f32⟩
  | .hbm, ⟨46, _⟩ => ⟨S100000x112, .f32⟩
  | .hbm, ⟨47, _⟩ => ⟨S_, .f32⟩
  | .hbm, ⟨48, _⟩ => ⟨S1x112, .f32⟩
  | .hbm, ⟨49, _⟩ => ⟨S100001x112, .f32⟩
  | .hbm, ⟨50, _⟩ => ⟨S_, .i32⟩
  | .hbm, ⟨51, _⟩ => ⟨S512x50, .i32⟩
  | .hbm, ⟨52, _⟩ => ⟨S512x50, .i1⟩
  | .hbm, ⟨53, _⟩ => ⟨S_, .i32⟩
  | .hbm, ⟨54, _⟩ => ⟨S512x50, .i32⟩
  | .hbm, ⟨55, _⟩ => ⟨S512x50, .i32⟩
  | .hbm, ⟨56, _⟩ => ⟨S512x50, .i32⟩
  | .hbm, ⟨57, _⟩ => ⟨S512x50x1, .i32⟩
  | .hbm, ⟨58, _⟩ => ⟨S512x50x112, .f32⟩
  | .hbm, ⟨59, _⟩ => ⟨S_, .f32⟩
  | .hbm, ⟨60, _⟩ => ⟨S512x112, .f32⟩
  | .hbm, ⟨61, _⟩ => ⟨S512x112, .f32⟩
  | .hbm, ⟨62, _⟩ => ⟨S512x112, .f32⟩
  | .hbm, ⟨63, _⟩ => ⟨S512x112, .f32⟩
  | .local _ .vmem, ⟨0, _⟩ => ⟨S16384, .f32⟩
  | .local _ .vmem, ⟨1, _⟩ => ⟨S16384, .f32⟩
  | .local _ .vmem, ⟨2, _⟩ => ⟨S16384x112, .f32⟩
  | .local _ .vmem, ⟨3, _⟩ => ⟨S16384x112, .f32⟩
  | .local _ .vmem, ⟨4, _⟩ => ⟨S16384x112, .f32⟩
  | .local _ .vmem, ⟨5, _⟩ => ⟨S16384x112, .f32⟩
  | .local _ .vmem, ⟨6, _⟩ => ⟨S16384, .f32⟩
  | .local _ .vmem, ⟨7, _⟩ => ⟨S16384, .f32⟩
  | .local _ .vmem, ⟨8, _⟩ => ⟨S16384x112, .f32⟩
  | .local _ .vmem, ⟨9, _⟩ => ⟨S16384x112, .f32⟩
  | .local _ .vmem, ⟨10, _⟩ => ⟨S16384x112, .f32⟩
  | .local _ .vmem, ⟨11, _⟩ => ⟨S16384x112, .f32⟩
  | .local _ .vmem, ⟨12, _⟩ => ⟨S5000x112, .f32⟩
  | .local _ .vmem, ⟨13, _⟩ => ⟨S5000x112, .f32⟩
  | .local _ .vmem, ⟨14, _⟩ => ⟨S5000x112, .f32⟩
  | .local _ .vmem, ⟨15, _⟩ => ⟨S5000x112, .f32⟩
  | .local _ .vmem, ⟨16, _⟩ => ⟨S5000x112, .f32⟩
  | .local _ .vmem, ⟨17, _⟩ => ⟨S5000x112, .f32⟩
  | .local _ .vmem, ⟨18, _⟩ => ⟨S5000x112, .f32⟩
  | .local _ .vmem, ⟨19, _⟩ => ⟨S5000x112, .f32⟩
  | .local _ .vmem, ⟨20, _⟩ => ⟨S512x112, .f32⟩
  | .local _ .vmem, ⟨21, _⟩ => ⟨S512x512, .f32⟩
  | .local _ .vmem, ⟨22, _⟩ => ⟨S512x512, .f32⟩
  | .local _ .vmem, ⟨23, _⟩ => ⟨S2x112x112, .f32⟩
  | .local _ .vmem, ⟨24, _⟩ => ⟨S512x112, .f32⟩
  | _, _ => ⟨S100000x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24

abbrev nD : Nat := 1
abbrev τ : Topo := Topo.v7x

variable {F : FTy → Type} [FloatOps F]

abbrev grid0 : Pipeline.Grid := ⟨1, ![62], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![62], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384x112 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x112 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x112 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x112 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x112 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x112 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x112x112 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x112 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  pads_S1000000_S1015808_0158080 : S1000000.Pads (![0] : Fin 1 → Nat) ![15808] ![0] S1015808
  h_S_ : 0 < S_.numel
  bcast_S_S1015808 : S_.BroadcastsInDim S1015808 (![] : Fin 0 → Fin S1015808.rank)
  bcast_S1015808_S1015808x1_0 : S1015808.BroadcastsInDim S1015808x1 (![0] : Fin 1 → Fin S1015808x1.rank)
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  inb_S16384x112_S16384x112_0_0 : ∀ a, (![0, 0] : Fin 2 → Nat) a + S16384x112.size a ≤ S16384x112.size a
  h_S16384x112 : 0 < S16384x112.numel
  shapeCasts_S16384x112_S16384x112 : S16384x112.ShapeCasts S16384x112
  broadcasts_S16384x1_S16384x112 : S16384x1.Broadcasts S16384x112
  bcast_S_S100000x112 : S_.BroadcastsInDim S100000x112 (![] : Fin 0 → Fin S100000x112.rank)
  inb_S5000x112_S5000x112_0_0 : ∀ a, (![0, 0] : Fin 2 → Nat) a + S5000x112.size a ≤ S5000x112.size a
  h_S5000x112 : 0 < S5000x112.numel
  shapeCasts_S5000x112_S5000x112 : S5000x112.ShapeCasts S5000x112
  bcast_S_S1x112 : S_.BroadcastsInDim S1x112 (![] : Fin 0 → Fin S1x112.rank)
  concatenates_S1x112_S100000x112_S100001x112_d0 : Shape.Concatenates [S1x112, S100000x112] S100001x112 0
  bcast_S_S512x50 : S_.BroadcastsInDim S512x50 (![] : Fin 0 → Fin S512x50.rank)
  bcast_S512x50_S512x50x1_0_1 : S512x50.BroadcastsInDim S512x50x1 (![0, 1] : Fin 2 → Fin S512x50x1.rank)
  reducesTo_S512x50x112_S512x112_d1 : S512x50x112.ReducesTo [1] S512x112
  bcast_S512x1_S512x112_0_1 : S512x1.BroadcastsInDim S512x112 (![0, 1] : Fin 2 → Fin S512x112.rank)
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x112_S512x112_0_0 : ∀ a, (![0, 0] : Fin 2 → Nat) a + S512x112.size a ≤ S512x112.size a
  h_S512x112 : 0 < S512x112.numel
  shapeCasts_S512x112_S512x112 : S512x112.ShapeCasts S512x112
  inb_S2x112x112_S1x112x112_0_0_0 : ∀ a, (![0, 0, 0] : Fin 3 → Nat) a + S1x112x112.size a ≤ S2x112x112.size a
  h_S1x112x112 : 0 < S1x112x112.numel
  shapeCasts_S1x112x112_S112x112 : S1x112x112.ShapeCasts S112x112
  transposes_S112x112_p1_0_S112x112 : S112x112.Transposes [1, 0] S112x112
  reduces_S512x112_S512 : S512x112.Reduces [1] S512
  shapeCasts_S512_S512x1 : S512.ShapeCasts S512x1
  broadcasts_S512x1_S512x112 : S512x1.Broadcasts S512x112
  inb_S2x112x112_S1x112x112_1_0_0 : ∀ a, (![1, 0, 0] : Fin 3 → Nat) a + S1x112x112.size a ≤ S2x112x112.size a
  gather_S100000x112_S1015808x1_S1015808x112_1_0_n_n_0_1_1112_wf : GatherDims.WF S100000x112 S1015808x1 S1015808x112 [1] [0] [] [0] [] 1 ![1, 112]
  scatter_S100000x112_S1015808x1_S1015808x112_1_0_0_1_wf : ScatterDims.WF S100000x112 S1015808x1 S1015808x112 [1] [0] [0] 1
  gather_S100001x112_S512x50x1_S512x50x112_2_0_n_n_0_2_1112_wf : GatherDims.WF S100001x112 S512x50x1 S512x50x112 [2] [0] [] [0] [] 2 ![1, 112]
  dot_S512x512_S512x512_S512x512_1_0_0_1_n_n_wf : DotDims.WF S512x512 S512x512 S512x512 [1] [0] [0] [1] [] []
  dot_S512x112_S112x112_S512x112_1_0_0_1_n_n_wf : DotDims.WF S512x112 S112x112 S512x112 [1] [0] [0] [1] [] []
  dot_S512x512_S512x112_S512x112_1_0_0_1_n_n_wf : DotDims.WF S512x512 S512x112 S512x112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S1015808.size a
  hwx0_0 : ∀ i : grid0.Coords, EltTy.bits .f32 = 32 ∨ (Rect.block (s := S1015808) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x112.size a ≤ S1015808x112.size a
  hwx0_1 : ∀ i : grid0.Coords, EltTy.bits .f32 = 32 ∨ (Rect.block (s := S1015808x112) S16384x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x112.size a ≤ S1015808x112.size a
  hwx0_2 : ∀ i : grid0.Coords, EltTy.bits .f32 = 32 ∨ (Rect.block (s := S1015808x112) S16384x112.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384.size a ≤ S1015808.size a
  hwx1_0 : ∀ i : grid1.Coords, EltTy.bits .f32 = 32 ∨ (Rect.block (s := S1015808) S16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x112.size a ≤ S1015808x112.size a
  hwx1_1 : ∀ i : grid1.Coords, EltTy.bits .f32 = 32 ∨ (Rect.block (s := S1015808x112) S16384x112.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x112.size a ≤ S1015808x112.size a
  hwx1_2 : ∀ i : grid1.Coords, EltTy.bits .f32 = 32 ∨ (Rect.block (s := S1015808x112) S16384x112.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x112.size a ≤ S100000x112.size a
  hwx2_0 : ∀ i : grid2.Coords, EltTy.bits .f32 = 32 ∨ (Rect.block (s := S100000x112) S5000x112.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x112.size a ≤ S100000x112.size a
  hwx2_1 : ∀ i : grid2.Coords, EltTy.bits .f32 = 32 ∨ (Rect.block (s := S100000x112) S5000x112.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x112.size a ≤ S100000x112.size a
  hwx2_2 : ∀ i : grid2.Coords, EltTy.bits .f32 = 32 ∨ (Rect.block (s := S100000x112) S5000x112.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x112.size a ≤ S100000x112.size a
  hwx2_3 : ∀ i : grid2.Coords, EltTy.bits .f32 = 32 ∨ (Rect.block (s := S100000x112) S5000x112.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x112.size a ≤ S512x112.size a
  hwx3_0 : ∀ i : grid3.Coords, EltTy.bits .f32 = 32 ∨ (Rect.block (s := S512x112) S512x112.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x112x112.size a ≤ S2x112x112.size a
  hwx3_3 : ∀ i : grid3.Coords, EltTy.bits .f32 = 32 ∨ (Rect.block (s := S2x112x112) S2x112x112.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x112.size a ≤ S512x112.size a
  hwx3_4 : ∀ i : grid3.Coords, EltTy.bits .f32 = 32 ∨ (Rect.block (s := S512x112) S512x112.size (cc3_transform_4 i) (hinb3_4 i)).WholeWords (EltTy.packing .f32)

variable [Facts₀]

def gather_S100000x112_S1015808x1_S1015808x112_1_0_n_n_0_1_1112 : GatherDims S100000x112 S1015808x1 S1015808x112 where
  offsetDims := [1]
  collapsedSliceDims := [0]
  operandBatchingDims := []
  startIndicesBatchingDims := []
  startIndexMap := [0]
  indexVectorDim := 1
  sliceSizes := ![1, 112]
  wf := gather_S100000x112_S1015808x1_S1015808x112_1_0_n_n_0_1_1112_wf
def scatter_S100000x112_S1015808x1_S1015808x112_1_0_0_1 : ScatterDims S100000x112 S1015808x1 S1015808x112 where
  updateWindowDims := [1]
  insertedWindowDims := [0]
  scatterDimsToOperandDims := [0]
  indexVectorDim := 1
  wf := scatter_S100000x112_S1015808x1_S1015808x112_1_0_0_1_wf
def gather_S100001x112_S512x50x1_S512x50x112_2_0_n_n_0_2_1112 : GatherDims S100001x112 S512x50x1 S512x50x112 where
  offsetDims := [2]
  collapsedSliceDims := [0]
  operandBatchingDims := []
  startIndicesBatchingDims := []
  startIndexMap := [0]
  indexVectorDim := 2
  sliceSizes := ![1, 112]
  wf := gather_S100001x112_S512x50x1_S512x50x112_2_0_n_n_0_2_1112_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x112_S112x112_S512x112_1_0_0_1_n_n : DotDims S512x112 S112x112 S512x112 where
  lhsContracting := [1]
  rhsContracting := [0]
  lhsNonContracting := [0]
  rhsNonContracting := [1]
  lhsBatch := []
  rhsBatch := []
  wf := dot_S512x112_S112x112_S512x112_1_0_0_1_n_n_wf
def dot_S512x512_S512x112_S512x112_1_0_0_1_n_n : DotDims S512x512 S512x112 S512x112 where
  lhsContracting := [1]
  rhsContracting := [0]
  lhsNonContracting := [0]
  rhsNonContracting := [1]
  lhsBatch := []
  rhsBatch := []
  wf := dot_S512x512_S512x112_S512x112_1_0_0_1_n_n_wf

abbrev win0_0 : Pipeline.Window sig grid0 :=
  Pipeline.Window.ofSpec (Memref.whole main_v0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16384x112.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S16384x112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S16384x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16384x112.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x112.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x112.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x112.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x112.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S512x112.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S2x112x112.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S512x112.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x112 : Shape := ⟨2, ![100000, 112]⟩
abbrev S1000000 : Shape := ⟨1, ![1000000]⟩
abbrev S512x512 : Shape := ⟨2, ![512, 512]⟩
abbrev S512x50 : Shape := ⟨2, ![512, 50]⟩
abbrev S512x1 : Shape := ⟨2, ![512, 1]⟩
abbrev S2x112x112 : Shape := ⟨3, ![2, 112, 112]⟩
abbrev S1000000x1 : Shape := ⟨2, ![1000000, 1]⟩
abbrev S_ : Shape := ⟨0, ![]⟩
abbrev S1000000x112 : Shape := ⟨2, ![1000000, 112]⟩
abbrev S1x112 : Shape := ⟨2, ![1, 112]⟩
abbrev S100001x112 : Shape := ⟨2, ![100001, 112]⟩
abbrev S512x50x1 : Shape := ⟨3, ![512, 50, 1]⟩
abbrev S512x50x112 : Shape := ⟨3, ![512, 50, 112]⟩
abbrev S512x112 : Shape := ⟨2, ![512, 112]⟩
abbrev S1x112x112 : Shape := ⟨3, ![1, 112, 112]⟩
abbrev S112x112 : Shape := ⟨2, ![112, 112]⟩
abbrev S512 : Shape := ⟨1, ![512]⟩

abbrev nBuf : Space → Nat
  | .hbm => 98
  | .vmem => 0
  | .smem => 0
  | _ => 0

abbrev bufTy : (tb : Table) → Fin (tcTables nBuf tb) → BufTy
  | .hbm, ⟨0, _⟩ => ⟨S100000x112, .f32⟩
  | .hbm, ⟨1, _⟩ => ⟨S1000000, .f32⟩
  | .hbm, ⟨2, _⟩ => ⟨S1000000, .i32⟩
  | .hbm, ⟨3, _⟩ => ⟨S1000000, .i32⟩
  | .hbm, ⟨4, _⟩ => ⟨S512x512, .f32⟩
  | .hbm, ⟨5, _⟩ => ⟨S512x512, .f32⟩
  | .hbm, ⟨6, _⟩ => ⟨S512x50, .i32⟩
  | .hbm, ⟨7, _⟩ => ⟨S512x1, .f32⟩
  | .hbm, ⟨8, _⟩ => ⟨S2x112x112, .f32⟩
  | .hbm, ⟨9, _⟩ => ⟨S1000000x1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x112, .f32⟩
  | .hbm, ⟨19, _⟩ => ⟨S1000000x112, .f32⟩
  | .hbm, ⟨20, _⟩ => ⟨S1000000x112, .f32⟩
  | .hbm, ⟨21, _⟩ => ⟨S_, .f32⟩
  | .hbm, ⟨22, _⟩ => ⟨S100000x112, .f32⟩
  | .hbm, ⟨23, _⟩ => ⟨S1000000x1, .i32⟩
  | .hbm, ⟨24, _⟩ => ⟨S100000x112, .f32⟩
  | .hbm, ⟨25, _⟩ => ⟨S100000x112, .f32⟩
  | .hbm, ⟨26, _⟩ => ⟨S1000000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x112, .f32⟩
  | .hbm, ⟨36, _⟩ => ⟨S1000000x112, .f32⟩
  | .hbm, ⟨37, _⟩ => ⟨S1000000x112, .f32⟩
  | .hbm, ⟨38, _⟩ => ⟨S_, .f32⟩
  | .hbm, ⟨39, _⟩ => ⟨S100000x112, .f32⟩
  | .hbm, ⟨40, _⟩ => ⟨S1000000x1, .i32⟩
  | .hbm, ⟨41, _⟩ => ⟨S100000x112, .f32⟩
  | .hbm, ⟨42, _⟩ => ⟨S100000x112, .f32⟩
  | .hbm, ⟨43, _⟩ => ⟨S_, .f32⟩
  | .hbm, ⟨44, _⟩ => ⟨S100000x112, .f32⟩
  | .hbm, ⟨45, _⟩ => ⟨S100000x112, .f32⟩
  | .hbm, ⟨46, _⟩ => ⟨S_, .f32⟩
  | .hbm, ⟨47, _⟩ => ⟨S1x112, .f32⟩
  | .hbm, ⟨48, _⟩ => ⟨S100001x112, .f32⟩
  | .hbm, ⟨49, _⟩ => ⟨S_, .i32⟩
  | .hbm, ⟨50, _⟩ => ⟨S512x50, .i32⟩
  | .hbm, ⟨51, _⟩ => ⟨S512x50, .i1⟩
  | .hbm, ⟨52, _⟩ => ⟨S_, .i32⟩
  | .hbm, ⟨53, _⟩ => ⟨S512x50, .i32⟩
  | .hbm, ⟨54, _⟩ => ⟨S512x50, .i32⟩
  | .hbm, ⟨55, _⟩ => ⟨S512x50, .i32⟩
  | .hbm, ⟨56, _⟩ => ⟨S512x50x1, .i32⟩
  | .hbm, ⟨57, _⟩ => ⟨S512x50x112, .f32⟩
  | .hbm, ⟨58, _⟩ => ⟨S_, .f32⟩
  | .hbm, ⟨59, _⟩ => ⟨S512x112, .f32⟩
  | .hbm, ⟨60, _⟩ => ⟨S512x112, .f32⟩
  | .hbm, ⟨61, _⟩ => ⟨S512x112, .f32⟩
  | .hbm, ⟨62, _⟩ => ⟨S512x512, .f32⟩
  | .hbm, ⟨63, _⟩ => ⟨S1x112x112, .f32⟩
  | .hbm, ⟨64, _⟩ => ⟨S112x112, .f32⟩
  | .hbm, ⟨65, _⟩ => ⟨S112x112, .f32⟩
  | .hbm, ⟨66, _⟩ => ⟨S512x112, .f32⟩
  | .hbm, ⟨67, _⟩ => ⟨S512x112, .f32⟩
  | .hbm, ⟨68, _⟩ => ⟨S512x112, .f32⟩
  | .hbm, ⟨69, _⟩ => ⟨S_, .f32⟩
  | .hbm, ⟨70, _⟩ => ⟨S512, .f32⟩
  | .hbm, ⟨71, _⟩ => ⟨S512x1, .f32⟩
  | .hbm, ⟨72, _⟩ => ⟨S512x1, .f32⟩
  | .hbm, ⟨73, _⟩ => ⟨S_, .f32⟩
  | .hbm, ⟨74, _⟩ => ⟨S512x1, .f32⟩
  | .hbm, ⟨75, _⟩ => ⟨S512x1, .f32⟩
  | .hbm, ⟨76, _⟩ => ⟨S512x112, .f32⟩
  | .hbm, ⟨77, _⟩ => ⟨S512x112, .f32⟩
  | .hbm, ⟨78, _⟩ => ⟨S512x112, .f32⟩
  | .hbm, ⟨79, _⟩ => ⟨S1x112x112, .f32⟩
  | .hbm, ⟨80, _⟩ => ⟨S112x112, .f32⟩
  | .hbm, ⟨81, _⟩ => ⟨S112x112, .f32⟩
  | .hbm, ⟨82, _⟩ => ⟨S512x112, .f32⟩
  | .hbm, ⟨83, _⟩ => ⟨S512x112, .f32⟩
  | .hbm, ⟨84, _⟩ => ⟨S512x112, .f32⟩
  | .hbm, ⟨85, _⟩ => ⟨S_, .f32⟩
  | .hbm, ⟨86, _⟩ => ⟨S512, .f32⟩
  | .hbm, ⟨87, _⟩ => ⟨S512x1, .f32⟩
  | .hbm, ⟨88, _⟩ => ⟨S512x1, .f32⟩
  | .hbm, ⟨89, _⟩ => ⟨S_, .f32⟩
  | .hbm, ⟨90, _⟩ => ⟨S512x1, .f32⟩
  | .hbm, ⟨91, _⟩ => ⟨S512x1, .f32⟩
  | .hbm, ⟨92, _⟩ => ⟨S512x112, .f32⟩
  | .hbm, ⟨93, _⟩ => ⟨S512x112, .f32⟩
  | .hbm, ⟨94, _⟩ => ⟨S512x112, .f32⟩
  | .hbm, ⟨95, _⟩ => ⟨S_, .f32⟩
  | .hbm, ⟨96, _⟩ => ⟨S512x112, .f32⟩
  | .hbm, ⟨97, _⟩ => ⟨S512x112, .f32⟩
  | _, _ => ⟨S100000x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_cst : Ref sig .tc := ⟨.hbm, 69, rfl⟩
abbrev main_call0_v1 : Ref sig .tc := ⟨.hbm, 70, rfl⟩
abbrev main_call0_v2 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x112_0_1 : S1000000x1.BroadcastsInDim S1000000x112 (![0, 1] : Fin 2 → Fin S1000000x112.rank)
  bcast_S_S100000x112 : S_.BroadcastsInDim S100000x112 (![] : Fin 0 → Fin S100000x112.rank)
  bcast_S_S1x112 : S_.BroadcastsInDim S1x112 (![] : Fin 0 → Fin S1x112.rank)
  concatenates_S1x112_S100000x112_S100001x112_d0 : Shape.Concatenates [S1x112, S100000x112] S100001x112 0
  bcast_S_S512x50 : S_.BroadcastsInDim S512x50 (![] : Fin 0 → Fin S512x50.rank)
  bcast_S512x50_S512x50x1_0_1 : S512x50.BroadcastsInDim S512x50x1 (![0, 1] : Fin 2 → Fin S512x50x1.rank)
  reducesTo_S512x50x112_S512x112_d1 : S512x50x112.ReducesTo [1] S512x112
  h_S_ : 0 < S_.numel
  bcast_S512x1_S512x112_0_1 : S512x1.BroadcastsInDim S512x112 (![0, 1] : Fin 2 → Fin S512x112.rank)
  slices_S2x112x112_S1x112x112_0_0_0 : S2x112x112.Slices ![0, 0, 0] S1x112x112
  shapeCasts_S1x112x112_S112x112 : S1x112x112.ShapeCasts S112x112
  transposes_S112x112_S112x112_1_0 : S112x112.Transposes [1, 0] S112x112
  reducesTo_S512x112_S512_d1 : S512x112.ReducesTo [1] S512
  bcast_S512_S512x1_0 : S512.BroadcastsInDim S512x1 (![0] : Fin 1 → Fin S512x1.rank)
  bcast_S_S512x1 : S_.BroadcastsInDim S512x1 (![] : Fin 0 → Fin S512x1.rank)
  slices_S2x112x112_S1x112x112_1_0_0 : S2x112x112.Slices ![1, 0, 0] S1x112x112
  bcast_S_S512x112 : S_.BroadcastsInDim S512x112 (![] : Fin 0 → Fin S512x112.rank)
  gather_S100000x112_S1000000x1_S1000000x112_1_0_n_n_0_1_1112_wf : GatherDims.WF S100000x112 S1000000x1 S1000000x112 [1] [0] [] [0] [] 1 ![1, 112]
  scatter_S100000x112_S1000000x1_S1000000x112_1_0_0_1_wf : ScatterDims.WF S100000x112 S1000000x1 S1000000x112 [1] [0] [0] 1
  gather_S100001x112_S512x50x1_S512x50x112_2_0_n_n_0_2_1112_wf : GatherDims.WF S100001x112 S512x50x1 S512x50x112 [2] [0] [] [0] [] 2 ![1, 112]
  dot_S512x512_S512x512_S512x512_1_0_0_1_n_n_wf : DotDims.WF S512x512 S512x512 S512x512 [1] [0] [0] [1] [] []
  dot_S512x112_S112x112_S512x112_1_0_0_1_n_n_wf : DotDims.WF S512x112 S112x112 S512x112 [1] [0] [0] [1] [] []
  dot_S512x512_S512x112_S512x112_1_0_0_1_n_n_wf : DotDims.WF S512x512 S512x112 S512x112 [1] [0] [0] [1] [] []

variable [Facts₀]

def gather_S100000x112_S1000000x1_S1000000x112_1_0_n_n_0_1_1112 : GatherDims S100000x112 S1000000x1 S1000000x112 where
  offsetDims := [1]
  collapsedSliceDims := [0]
  operandBatchingDims := []
  startIndicesBatchingDims := []
  startIndexMap := [0]
  indexVectorDim := 1
  sliceSizes := ![1, 112]
  wf := gather_S100000x112_S1000000x1_S1000000x112_1_0_n_n_0_1_1112_wf
def scatter_S100000x112_S1000000x1_S1000000x112_1_0_0_1 : ScatterDims S100000x112 S1000000x1 S1000000x112 where
  updateWindowDims := [1]
  insertedWindowDims := [0]
  scatterDimsToOperandDims := [0]
  indexVectorDim := 1
  wf := scatter_S100000x112_S1000000x1_S1000000x112_1_0_0_1_wf
def gather_S100001x112_S512x50x1_S512x50x112_2_0_n_n_0_2_1112 : GatherDims S100001x112 S512x50x1 S512x50x112 where
  offsetDims := [2]
  collapsedSliceDims := [0]
  operandBatchingDims := []
  startIndicesBatchingDims := []
  startIndexMap := [0]
  indexVectorDim := 2
  sliceSizes := ![1, 112]
  wf := gather_S100001x112_S512x50x1_S512x50x112_2_0_n_n_0_2_1112_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x112_S112x112_S512x112_1_0_0_1_n_n : DotDims S512x112 S112x112 S512x112 where
  lhsContracting := [1]
  rhsContracting := [0]
  lhsNonContracting := [0]
  rhsNonContracting := [1]
  lhsBatch := []
  rhsBatch := []
  wf := dot_S512x112_S112x112_S512x112_1_0_0_1_n_n_wf
def dot_S512x512_S512x112_S512x112_1_0_0_1_n_n : DotDims S512x512 S512x112 S512x112 where
  lhsContracting := [1]
  rhsContracting := [0]
  lhsNonContracting := [0]
  rhsNonContracting := [1]
  lhsBatch := []
  rhsBatch := []
  wf := dot_S512x512_S512x112_S512x112_1_0_0_1_n_n_wf

class Facts : Prop extends Facts₀ where

variable [Facts]
-- ==== Proof.KernelRun.lean ====
/-
  The first program's run with its result named. Every weakly fair execution of @main ends with the result array
  holding what the last boundary of the run's fold holds there — the last region's write-back — and with the
  argument arrays as launched. The segments, the thread states and the launch are those of the frame; only the
  reading of the final state asks for one more buffer.
-/
import proofs.«153129_j82102594830932_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the fold's last contents there, the arguments end as launched. -/
theorem run : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v38 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.Terms.lean ====
/-
  The two programs' arrays as named whole-array terms at the extended reals.

  One propagation step sends, along every edge e, row cols[e] of a node table T, scaled by the edge's weight, to node
  rows[e]: step T (n, j) = Σ_{e : rows e = n} vals e · T (cols e, j). The item table is the mean of the embedding and
  its first two propagated copies; a session's start vector is the sum of its items' rows over its length; the session
  stage is two rounds of (linear map, product with D·A, division by the row's Euclidean length or ε), averaged with the
  start vector. `K` spells these with the first program's operations — its edge list is padded with zero-weight
  edges from node 0 to node 0 up to 62 · 16384 — and `R` with the second program's, on the edge list as given.
-/
import proofs.«153129_j82102594830932_1_alg».proof.Proof.Gen.KernelIdeal
import proofs.«153129_j82102594830932_1_alg».proof.Proof.Gen.ReferenceIdeal
import Idealize.ShloMosaic.Lib.ValueIdx

noncomputable section

namespace Cert.Terms

open Idealize.ShloMosaic Idealize.ShloMosaic.ValueIdx

/-- Edge e's message: row e of the gathered table times the edge's weight. -/
def edgeMsg (v : (⟨1, ![1015808]⟩ : Shape).Idx → EReal) (g : (⟨2, ![1015808, 112]⟩ : Shape).Idx → EReal) :
    (⟨2, ![1015808, 112]⟩ : Shape).Idx → EReal :=
  fun i => v (ix1 (⟨(i 0).val, idx2_lt0 i⟩ : Fin 1015808)) * g i

/-- The mean of a table and two more, entry by entry: ((e + c₁) + c₂) · (1/3). -/
def mean3 (e c1 c2 : (⟨2, ![100000, 112]⟩ : Shape).Idx → EReal) : (⟨2, ![100000, 112]⟩ : Shape).Idx → EReal :=
  fun i => ((e i + c1 i) + c2 i) * ((1 / 3 : ℝ) : EReal)

namespace K
open Cert.KernelIdeal Cert.KernelIdeal.Gen

/-- An integer column of the edge list, padded with zeros. -/
def padW (x : IVec S1000000 32) : IVec S1015808 32 :=
  pad S1015808 ![0] ![15808] ![0] x (constantI S_ 32 0#32) pads_S1000000_S1015808_0158080 h_S_

/-- The weights, padded with the float of the integer zero. -/
def padF (x : FVec Ideal S1000000 .f32) : FVec Ideal S1015808 .f32 :=
  pad S1015808 ![0] ![15808] ![0] x (sitofp (F := Ideal) .f32 (constantI S_ 32 0#32)) pads_S1000000_S1015808_0158080 h_S_

/-- Source-node words as a start-index column: a negative word has the node count added. -/
def wrap (c : IVec S1015808 32) : IVec S1015808x1 32 :=
  broadcastInDim S1015808x1 ![0] bcast_S1015808_S1015808x1_0
    (select (cmpi .slt c (broadcastInDim S1015808 ![] bcast_S_S1015808 (constantI S_ 32 0#32)))
      (addi c (broadcastInDim S1015808 ![] bcast_S_S1015808 (constantI S_ 32 100000#32))) c)

/-- One propagation step over the padded edge list. -/
def step (T : FVec Ideal S100000x112 .f32) (x1 : FVec Ideal S1000000 .f32) (x2 x3 : IVec S1000000 32) : FVec Ideal S100000x112 .f32 :=
  Host.scatterAdd (F := Ideal) scatter_S100000x112_S1015808x1_S1015808x112_1_0_0_1
    (broadcastInDim S100000x112 ![] bcast_S_S100000x112 (constant (F := Ideal) S_ .f32 0x00000000#32))
    (broadcastInDim S1015808x1 ![0] bcast_S1015808_S1015808x1_0 (padW x2))
    (edgeMsg (padF x1) (Host.gather gather_S100000x112_S1015808x1_S1015808x112_1_0_n_n_0_1_1112 T (wrap (padW x3))))

/-- A session's start vector from the item table: rows of [0; E] named by the session's item words, summed, over its length. -/
def pool (E : FVec Ideal S100000x112 .f32) (x6 : IVec S512x50 32) (x7 : FVec Ideal S512x1 .f32) : FVec Ideal S512x112 .f32 :=
  Host.divf (F := Ideal)
    (Host.reduceAdd (F := Ideal)
      (Host.gather gather_S100001x112_S512x50x1_S512x50x112_2_0_n_n_0_2_1112
        (concatenate S100001x112 0 [⟨S1x112, broadcastInDim S1x112 ![] bcast_S_S1x112 (constant (F := Ideal) S_ .f32 0x00000000#32)⟩, ⟨S100000x112, E⟩]
          concatenates_S1x112_S100000x112_S100001x112_d0)
        (broadcastInDim S512x50x1 ![0, 1] bcast_S512x50_S512x50x1_0_1
          (select (cmpi .slt x6 (broadcastInDim S512x50 ![] bcast_S_S512x50 (constantI S_ 32 0#32)))
            (addi x6 (broadcastInDim S512x50 ![] bcast_S_S512x50 (constantI S_ 32 100001#32))) x6)))
      (constant (F := Ideal) S_ .f32 0x00000000#32) reducesTo_S512x50x112_S512x112_d1 h_S_)
    (broadcastInDim S512x112 ![0, 1] bcast_S512x1_S512x112_0_1 x7)

end K

namespace R
open Cert.ReferenceIdeal Cert.ReferenceIdeal.Gen

/-- Source-node words as a start-index column: a negative word has the node count added. -/
def wrap (c : IVec S1000000 32) : IVec S1000000x1 32 :=
  broadcastInDim S1000000x1 ![0] bcast_S1000000_S1000000x1_0
    (select (cmpi .slt c (broadcastInDim S1000000 ![] bcast_S_S1000000 (constantI S_ 32 0#32)))
      (addi c (broadcastInDim S1000000 ![] bcast_S_S1000000 (constantI S_ 32 100000#32))) c)

/-- One propagation step over the edge list as given. -/
def step (T : FVec Ideal S100000x112 .f32) (x1 : FVec Ideal S1000000 .f32) (x2 x3 : IVec S1000000 32) : FVec Ideal S100000x112 .f32 :=
  Host.scatterAdd (F := Ideal) scatter_S100000x112_S1000000x1_S1000000x112_1_0_0_1
    (broadcastInDim S100000x112 ![] bcast_S_S100000x112 (constant (F := Ideal) S_ .f32 0x00000000#32))
    (broadcastInDim S1000000x1 ![0] bcast_S1000000_S1000000x1_0 x2)
    (mulf (broadcastInDim S1000000x112 ![0, 1] bcast_S1000000x1_S1000000x112_0_1 (broadcastInDim S1000000x1 ![0] bcast_S1000000_S1000000x1_0 x1))
      (Host.gather gather_S100000x112_S1000000x1_S1000000x112_1_0_n_n_0_1_1112 T (wrap x3)))

/-- The item table: the mean of the embedding and its two propagated copies, by a division by 3. -/
def itemEmb (x0 : FVec Ideal S100000x112 .f32) (x1 : FVec Ideal S1000000 .f32) (x2 x3 : IVec S1000000 32) : FVec Ideal S100000x112 .f32 :=
  Host.divf (F := Ideal) (addf (addf x0 (step x0 x1 x2 x3)) (step (step x0 x1 x2 x3) x1 x2 x3))
    (broadcastInDim S100000x112 ![] bcast_S_S100000x112 (constant (F := Ideal) S_ .f32 0x40400000#32))

/-- A session's start vector from the item table. -/
def pool (E : FVec Ideal S100000x112 .f32) (x6 : IVec S512x50 32) (x7 : FVec Ideal S512x1 .f32) : FVec Ideal S512x112 .f32 :=
  Host.divf (F := Ideal)
    (Host.reduceAdd (F := Ideal)
      (Host.gather gather_S100001x112_S512x50x1_S512x50x112_2_0_n_n_0_2_1112
        (concatenate S100001x112 0 [⟨S1x112, broadcastInDim S1x112 ![] bcast_S_S1x112 (constant (F := Ideal) S_ .f32 0x00000000#32)⟩, ⟨S100000x112, E⟩]
          concatenates_S1x112_S100000x112_S100001x112_d0)
        (broadcastInDim S512x50x1 ![0, 1] bcast_S512x50_S512x50x1_0_1
          (select (cmpi .slt x6 (broadcastInDim S512x50 ![] bcast_S_S512x50 (constantI S_ 32 0#32)))
            (addi x6 (broadcastInDim S512x50 ![] bcast_S_S512x50 (constantI S_ 32 100001#32))) x6)))
      (constant (F := Ideal) S_ .f32 0x00000000#32) reducesTo_S512x50x112_S512x112_d1 h_S_)
    (broadcastInDim S512x112 ![0, 1] bcast_S512x1_S512x112_0_1 x7)

/-- Slab k of the weights as a matrix, transposed. -/
def wT0 (x8 : FVec Ideal S2x112x112 .f32) : FVec Ideal S112x112 .f32 :=
  transpose S112x112 [1, 0] (shapeCast _ (extractStridedSlice S1x112x112 ![0, 0, 0] x8 slices_S2x112x112_S1x112x112_0_0_0) shapeCasts_S1x112x112_S112x112) transposes_S112x112_S112x112_1_0
def wT1 (x8 : FVec Ideal S2x112x112 .f32) : FVec Ideal S112x112 .f32 :=
  transpose S112x112 [1, 0] (shapeCast _ (extractStridedSlice S1x112x112 ![1, 0, 0] x8 slices_S2x112x112_S1x112x112_1_0_0) shapeCasts_S1x112x112_S112x112) transposes_S112x112_S112x112_1_0

/-- A matrix with every row divided by the larger of its Euclidean length and ε. -/
def unitRows (y : FVec Ideal S512x112 .f32) : FVec Ideal S512x112 .f32 :=
  Host.divf (F := Ideal) y (broadcastInDim S512x112 ![0, 1] bcast_S512x1_S512x112_0_1
    (maximumf (Host.sqrt (F := Ideal) (broadcastInDim S512x1 ![0] bcast_S512_S512x1_0
        (Host.reduceAdd (F := Ideal) (mulf y y) (constant (F := Ideal) S_ .f32 0x00000000#32) reducesTo_S512x112_S512_d1 h_S_)))
      (broadcastInDim S512x1 ![] bcast_S_S512x1 (constant (F := Ideal) S_ .f32 0x2B8CBCCC#32))))

/-- One round: the linear map, the product with D·A, the rows made unit. -/
def round (DA : FVec Ideal S512x512 .f32) (s : FVec Ideal S512x112 .f32) (wT : FVec Ideal S112x112 .f32) : FVec Ideal S512x112 .f32 :=
  unitRows (Host.dotGeneral (F := Ideal) dot_S512x512_S512x112_S512x112_1_0_0_1_n_n none DA
    (Host.dotGeneral (F := Ideal) dot_S512x112_S112x112_S512x112_1_0_0_1_n_n none s wT))

/-- The session stage from the start vectors: (s + r₁ + r₂) / 3 with r₁ = round s, r₂ = round r₁. -/
def sess (s : FVec Ideal S512x112 .f32) (x4 x5 : FVec Ideal S512x512 .f32) (x8 : FVec Ideal S2x112x112 .f32) : FVec Ideal S512x112 .f32 :=
  Host.divf (F := Ideal)
    (addf (addf s (round (Host.dotGeneral (F := Ideal) dot_S512x512_S512x512_S512x512_1_0_0_1_n_n none x4 x5) s (wT0 x8)))
      (round (Host.dotGeneral (F := Ideal) dot_S512x512_S512x512_S512x512_1_0_0_1_n_n none x4 x5)
        (round (Host.dotGeneral (F := Ideal) dot_S512x512_S512x512_S512x512_1_0_0_1_n_n none x4 x5) s (wT0 x8)) (wT1 x8)))
    (broadcastInDim S512x112 ![] bcast_S_S512x112 (constant (F := Ideal) S_ .f32 0x40400000#32))

end R

end Cert.Terms

end
-- ==== Proof.Blocks.lean ====
/-
  Each region's output array after its grid, as one function of the arrays the region finds.
-/
import proofs.«153129_j82102594830932_1_alg».proof.Proof.Gen.KernelIdeal.Frame
import proofs.«153129_j82102594830932_1_alg».proof.Proof.Terms
import Idealize.ShloMosaic.Lib.Pipeline.Value
import Idealize.ShloMosaic.Lib.ValueIdx
import Idealize.ShloMosaic.Lib.ValueLayout
import Idealize.ShloMosaic.PureOps.IdealRules

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

/-! ## Zero offsets, and two layout operations read at an index -/

theorem zeros1 : (![0] : Fin 1 → Nat) = fun _ => 0 := funext fun a => by fin_cases a; rfl

theorem zeros2 : (![0, 0] : Fin 2 → Nat) = fun _ => 0 := funext fun a => by fin_cases a <;> rfl

/-- An `[a]` vector viewed as the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-! ## Region 0: every edge's row scaled by the edge's weight -/

/-- The body's value at an entry of its block: the weight of the entry's row times the entry. -/
theorem msg0_apply (x0 : Vec Ideal S16384 .f32) (x1 : Vec Ideal S16384x112 .f32) (p : Fin 16384) (q : Fin 112) :
    k0_pay1 x0 x1 (ix2 p q) = x0 (ix1 p) * x1 (ix2 p q) := by
  unfold k0_pay1
  rw [mulf_apply, shapeCast_self, shapeCast_self, broadcastTo_a1_ab_apply, shapeCast_a_a1_apply]

/-- The three windows' blocks move together: block `t` of each array at grid point `t`, the whole width. -/
theorem idx0 : ∀ t : Fin cfg0.N, win0_0.index t (0 : Fin 1) = t.val
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block `t` of the weights and of the gathered rows, through the body, is block `t` of the message array. -/
theorem blk0_eq (t : Fin cfg0.N) (A0 : S1015808.Idx → EReal) (A1 : S1015808x112.Idx → EReal) :
    k0_pay1 (F := Ideal) (((cfg0.win 0).blk t).view.read (Elt Ideal) A0) (((cfg0.win 1).blk t).view.read (Elt Ideal) A1)
      = ((cfg0.win 2).blk t).view.read (Elt Ideal) (Cert.Terms.edgeMsg A0 A1) := by
  obtain ⟨e0, e1, e2, e3, e4⟩ := idx0 t
  funext j
  obtain ⟨p, q, rfl⟩ : ∃ (p : Fin 16384) (q : Fin 112), j = ix2 p q := ⟨j 0, j 1, eq_ix2 j⟩
  rw [msg0_apply]
  show A0 (((cfg0.win 0).blk t).view.emb (ix1 p)) * A1 (((cfg0.win 1).blk t).view.emb (ix2 p q))
    = A0 (ix1 ⟨(((cfg0.win 2).blk t).view.emb (ix2 p q) 0).val, idx2_lt0 _⟩) * A1 (((cfg0.win 2).blk t).view.emb (ix2 p q))
  have h0 : ((cfg0.win 0).blk t).view.emb (ix1 p)
      = ix1 ⟨(((cfg0.win 2).blk t).view.emb (ix2 p q) 0).val, idx2_lt0 _⟩ := by
    funext a; apply Fin.ext
    match a with
    | ⟨0, _⟩ =>
      show win0_0.index t (0 : Fin 1) * 16384 + 1 * p.val = win0_2.index t (0 : Fin 2) * 16384 + 1 * p.val
      omega
  have h1 : ((cfg0.win 1).blk t).view.emb (ix2 p q) = ((cfg0.win 2).blk t).view.emb (ix2 p q) := by
    funext a; apply Fin.ext
    match a with
    | ⟨0, _⟩ =>
      show win0_1.index t (0 : Fin 2) * 16384 + 1 * p.val = win0_2.index t (0 : Fin 2) * 16384 + 1 * p.val
      omega
    | ⟨1, _⟩ =>
      show win0_1.index t (1 : Fin 2) * 112 + 1 * q.val = win0_2.index t (1 : Fin 2) * 112 + 1 * q.val
      omega
  rw [h0, h1]

/-- What grid point `t` writes back is block `t` of the message array of the weights and the gathered rows. -/
theorem flushed0 (c : Dev nD) (t : Fin cfg0.N) :
    (dat0 (F := Ideal) V c).flushed 2 t
      = ((cfg0.win 2).blk t).view.read (Elt Ideal) (Cert.Terms.edgeMsg (V c main_v0) (V c main_v9)) := by
  show (cfg0.win 2).cut (grid0.coords t) ((dat0 V c).after 2 t) = _
  rw [after0_2]
  unfold out0_2
  rw [View.canon_unit_zero zeros2]
  simp only [View.ld_unit_zero (S := S16384) zeros1, View.ld_unit_zero (S := S16384x112) zeros2]
  unfold iblk0
  exact blk0_eq t (V c main_v0) (V c main_v9)

/-- An entry of the message array is in point `t`'s block iff each coordinate is in the block's range on its axis. -/
theorem mem_blk0 (t : Fin cfg0.N) (i : S1015808x112.Idx) :
    i ∈ ((cfg0.win 2).blk t).view.set ↔ ∀ a : Fin 2, win0_2.index t a * S16384x112.size a ≤ (i a).val
      ∧ (i a).val < win0_2.index t a * S16384x112.size a + S16384x112.size a := by
  show i ∈ ((View.whole main_v10).slice (win0_2.rect t)).set ↔ _
  rw [View.set_slice_whole, Rect.mem_set_unit]
  exact Iff.rfl

/-- The blocks tile the array: edge `r` is in the block of point `r / 16384`. -/
theorem cover0 (i : S1015808x112.Idx) :
    ∃ t : Fin cfg0.N, (cfg0.win 2).flush t = true ∧ i ∈ ((cfg0.win 2).blk t).view.set := by
  have hi0 : (i 0).val < 1015808 := (i 0).isLt
  have hi1 : (i 1).val < 112 := (i 1).isLt
  have hN : cfg0.N = 62 := N_0
  have ht : (i 0).val / 16384 < cfg0.N := by rw [hN]; omega
  generalize htd : (⟨(i 0).val / 16384, ht⟩ : Fin cfg0.N) = t
  have hv : t.val = (i 0).val / 16384 := by rw [← htd]
  obtain ⟨e0, e1, e2, e3, e4⟩ := idx0 t
  refine ⟨t, flush0_2 t, ?_⟩
  rw [mem_blk0]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 112 ≤ (i 1).val ∧ (i 1).val < win0_2.index t (1 : Fin 2) * 112 + 112
    omega

/-- Region 0: the message array, 62 blocks of 16384 edges. -/
theorem arr0 (c : Dev nD) :
    (dat0 (F := Ideal) V c).arrAt 2 cfg0.N = Cert.Terms.edgeMsg (V c main_v0) (V c main_v9) := by
  exact (dat0 (F := Ideal) V c).arrAt_eq_of_cover 2 (Cert.Terms.edgeMsg (V c main_v0) (V c main_v9))
    (fun t _ => flushed0 V c t) cover0

/-! ## Region 1: the same body on the second step's gathered rows -/

/-- The body's value at an entry of its block: the weight of the entry's row times the entry. -/
theorem msg1_apply (x0 : Vec Ideal S16384 .f32) (x1 : Vec Ideal S16384x112 .f32) (p : Fin 16384) (q : Fin 112) :
    k1_pay1 x0 x1 (ix2 p q) = x0 (ix1 p) * x1 (ix2 p q) := by
  unfold k1_pay1
  rw [mulf_apply, shapeCast_self, shapeCast_self, broadcastTo_a1_ab_apply, shapeCast_a_a1_apply]

/-- The three windows' blocks move together: block `t` of each array at grid point `t`, the whole width. -/
theorem idx1 : ∀ t : Fin cfg1.N, win1_0.index t (0 : Fin 1) = t.val
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Block `t` of the weights and of the gathered rows, through the body, is block `t` of the message array. -/
theorem blk1_eq (t : Fin cfg1.N) (A0 : S1015808.Idx → EReal) (A1 : S1015808x112.Idx → EReal) :
    k1_pay1 (F := Ideal) (((cfg1.win 0).blk t).view.read (Elt Ideal) A0) (((cfg1.win 1).blk t).view.read (Elt Ideal) A1)
      = ((cfg1.win 2).blk t).view.read (Elt Ideal) (Cert.Terms.edgeMsg A0 A1) := by
  obtain ⟨e0, e1, e2, e3, e4⟩ := idx1 t
  funext j
  obtain ⟨p, q, rfl⟩ : ∃ (p : Fin 16384) (q : Fin 112), j = ix2 p q := ⟨j 0, j 1, eq_ix2 j⟩
  rw [msg1_apply]
  show A0 (((cfg1.win 0).blk t).view.emb (ix1 p)) * A1 (((cfg1.win 1).blk t).view.emb (ix2 p q))
    = A0 (ix1 ⟨(((cfg1.win 2).blk t).view.emb (ix2 p q) 0).val, idx2_lt0 _⟩) * A1 (((cfg1.win 2).blk t).view.emb (ix2 p q))
  have h0 : ((cfg1.win 0).blk t).view.emb (ix1 p)
      = ix1 ⟨(((cfg1.win 2).blk t).view.emb (ix2 p q) 0).val, idx2_lt0 _⟩ := by
    funext a; apply Fin.ext
    match a with
    | ⟨0, _⟩ =>
      show win1_0.index t (0 : Fin 1) * 16384 + 1 * p.val = win1_2.index t (0 : Fin 2) * 16384 + 1 * p.val
      omega
  have h1 : ((cfg1.win 1).blk t).view.emb (ix2 p q) = ((cfg1.win 2).blk t).view.emb (ix2 p q) := by
    funext a; apply Fin.ext
    match a with
    | ⟨0, _⟩ =>
      show win1_1.index t (0 : Fin 2) * 16384 + 1 * p.val = win1_2.index t (0 : Fin 2) * 16384 + 1 * p.val
      omega
    | ⟨1, _⟩ =>
      show win1_1.index t (1 : Fin 2) * 112 + 1 * q.val = win1_2.index t (1 : Fin 2) * 112 + 1 * q.val
      omega
  rw [h0, h1]

/-- What grid point `t` writes back is block `t` of the message array of the weights and the gathered rows. -/
theorem flushed1 (c : Dev nD) (t : Fin cfg1.N) :
    (dat1 (F := Ideal) V c).flushed 2 t
      = ((cfg1.win 2).blk t).view.read (Elt Ideal) (Cert.Terms.edgeMsg (V c main_v0) (V c main_v20)) := by
  show (cfg1.win 2).cut (grid1.coords t) ((dat1 V c).after 2 t) = _
  rw [after1_2]
  unfold out1_2
  rw [View.canon_unit_zero zeros2]
  simp only [View.ld_unit_zero (S := S16384) zeros1, View.ld_unit_zero (S := S16384x112) zeros2]
  unfold iblk1
  exact blk1_eq t (V c main_v0) (V c main_v20)

/-- An entry of the message array is in point `t`'s block iff each coordinate is in the block's range on its axis. -/
theorem mem_blk1 (t : Fin cfg1.N) (i : S1015808x112.Idx) :
    i ∈ ((cfg1.win 2).blk t).view.set ↔ ∀ a : Fin 2, win1_2.index t a * S16384x112.size a ≤ (i a).val
      ∧ (i a).val < win1_2.index t a * S16384x112.size a + S16384x112.size a := by
  show i ∈ ((View.whole main_v21).slice (win1_2.rect t)).set ↔ _
  rw [View.set_slice_whole, Rect.mem_set_unit]
  exact Iff.rfl

/-- The blocks tile the array: edge `r` is in the block of point `r / 16384`. -/
theorem cover1 (i : S1015808x112.Idx) :
    ∃ t : Fin cfg1.N, (cfg1.win 2).flush t = true ∧ i ∈ ((cfg1.win 2).blk t).view.set := by
  have hi0 : (i 0).val < 1015808 := (i 0).isLt
  have hi1 : (i 1).val < 112 := (i 1).isLt
  have hN : cfg1.N = 62 := N_1
  have ht : (i 0).val / 16384 < cfg1.N := by rw [hN]; omega
  generalize htd : (⟨(i 0).val / 16384, ht⟩ : Fin cfg1.N) = t
  have hv : t.val = (i 0).val / 16384 := by rw [← htd]
  obtain ⟨e0, e1, e2, e3, e4⟩ := idx1 t
  refine ⟨t, flush1_2 t, ?_⟩
  rw [mem_blk1]
  intro a
  match a with
  | ⟨0, _⟩ =>
    show win1_2.index t (0 : Fin 2) * 16384 ≤ (i 0).val ∧ (i 0).val < win1_2.index t (0 : Fin 2) * 16384 + 16384
    omega
  | ⟨1, _⟩ =>
    show win1_2.index t (1 : Fin 2) * 112 ≤ (i 1).val ∧ (i 1).val < win1_2.index t (1 : Fin 2) * 112 + 112
    omega

/-- Region 1: the second step's message array. -/
theorem arr1 (c : Dev nD) :
    (dat1 (F := Ideal) V c).arrAt 2 cfg1.N = Cert.Terms.edgeMsg (V c main_v0) (V c main_v20) := by
  exact (dat1 (F := Ideal) V c).arrAt_eq_of_cover 2 (Cert.Terms.edgeMsg (V c main_v0) (V c main_v20))
    (fun t _ => flushed1 V c t) cover1

/-! ## Region 2: the mean of three tables -/

/-- The named reciprocal is the real number one third. -/
theorem inv3 : Named.named (F := Ideal) Cert.KernelIdeal.κ "inv_3" (φ := .f32) 0x3EAAAAAB#32 = ((1 / 3 : ℝ) : EReal) :=
  IdealRules.named_const.ideal_named_scalar _ _ _ _ rfl

/-- The body's value at an entry of its block: the three entries added, times one third. -/
theorem mean2_apply (x0 x1 x2 : Vec Ideal S5000x112 .f32) (j : S5000x112.Idx) :
    k2_pay1 x0 x1 x2 j = ((x0 j + x1 j) + x2 j) * ((1 / 3 : ℝ) : EReal) := by
  unfold k2_pay1
  rw [mulf_apply, addf_apply, addf_apply, shapeCast_self, shapeCast_self, broadcast_apply, inv3]

/-- The four windows' blocks move together: block `t` of each table at grid point `t`, the whole width. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Block `t` of the three tables, through the body, is block `t` of their mean. -/
theorem blk2_eq (t : Fin cfg2.N) (A0 A1 A2 : S100000x112.Idx → EReal) :
    k2_pay1 (F := Ideal) (((cfg2.win 0).blk t).view.read (Elt Ideal) A0) (((cfg2.win 1).blk t).view.read (Elt Ideal) A1)
        (((cfg2.win 2).blk t).view.read (Elt Ideal) A2)
      = ((cfg2.win 3).blk t).view.read (Elt Ideal) (Cert.Terms.mean3 A0 A1 A2) := by
  obtain ⟨a0, a1, b0, b1, c0, c1, d0, d1⟩ := idx2 t
  funext j
  obtain ⟨p, q, rfl⟩ : ∃ (p : Fin 5000) (q : Fin 112), j = ix2 p q := ⟨j 0, j 1, eq_ix2 j⟩
  rw [mean2_apply]
  show ((A0 (((cfg2.win 0).blk t).view.emb (ix2 p q)) + A1 (((cfg2.win 1).blk t).view.emb (ix2 p q)))
        + A2 (((cfg2.win 2).blk t).view.emb (ix2 p q))) * ((1 / 3 : ℝ) : EReal)
    = ((A0 (((cfg2.win 3).blk t).view.emb (ix2 p q)) + A1 (((cfg2.win 3).blk t).view.emb (ix2 p q)))
        + A2 (((cfg2.win 3).blk t).view.emb (ix2 p q))) * ((1 / 3 : ℝ) : EReal)
  have h0 : ((cfg2.win 0).blk t).view.emb (ix2 p q) = ((cfg2.win 3).blk t).view.emb (ix2 p q) := by
    funext a; apply Fin.ext
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 112 + 1 * q.val = win2_3.index t (1 : Fin 2) * 112 + 1 * q.val
      omega
  have h1 : ((cfg2.win 1).blk t).view.emb (ix2 p q) = ((cfg2.win 3).blk t).view.emb (ix2 p q) := by
    funext a; apply Fin.ext
    match a with
    | ⟨0, _⟩ =>
      show win2_1.index t (0 : Fin 2) * 5000 + 1 * p.val = win2_3.index t (0 : Fin 2) * 5000 + 1 * p.val
      omega
    | ⟨1, _⟩ =>
      show win2_1.index t (1 : Fin 2) * 112 + 1 * q.val = win2_3.index t (1 : Fin 2) * 112 + 1 * q.val
      omega
  have h2 : ((cfg2.win 2).blk t).view.emb (ix2 p q) = ((cfg2.win 3).blk t).view.emb (ix2 p q) := by
    funext a; apply Fin.ext
    match a with
    | ⟨0, _⟩ =>
      show win2_2.index t (0 : Fin 2) * 5000 + 1 * p.val = win2_3.index t (0 : Fin 2) * 5000 + 1 * p.val
      omega
    | ⟨1, _⟩ =>
      show win2_2.index t (1 : Fin 2) * 112 + 1 * q.val = win2_3.index t (1 : Fin 2) * 112 + 1 * q.val
      omega
  rw [h0, h1, h2]

/-- What grid point `t` writes back is block `t` of the mean of the three tables. -/
theorem flushed2 (c : Dev nD) (t : Fin cfg2.N) :
    (dat2 (F := Ideal) V c).flushed 3 t
      = ((cfg2.win 3).blk t).view.read (Elt Ideal) (Cert.Terms.mean3 (V c main_arg0) (V c main_v13) (V c main_v24)) := by
  show (cfg2.win 3).cut (grid2.coords t) ((dat2 V c).after 3 t) = _
  rw [after2_3]
  unfold out2_3
  rw [View.canon_unit_zero zeros2]
  simp only [View.ld_unit_zero (S := S5000x112) zeros2]
  unfold iblk2
  exact blk2_eq t (V c main_arg0) (V c main_v13) (V c main_v24)

/-- An entry of the table is in point `t`'s block iff each coordinate is in the block's range on its axis. -/
theorem mem_blk2 (t : Fin cfg2.N) (i : S100000x112.Idx) :
    i ∈ ((cfg2.win 3).blk t).view.set ↔ ∀ a : Fin 2, win2_3.index t a * S5000x112.size a ≤ (i a).val
      ∧ (i a).val < win2_3.index t a * S5000x112.size a + S5000x112.size a := by
  show i ∈ ((View.whole main_v25).slice (win2_3.rect t)).set ↔ _
  rw [View.set_slice_whole, Rect.mem_set_unit]
  exact Iff.rfl

/-- The blocks tile the table: node `r` is in the block of point `r / 5000`. -/
theorem cover2 (i : S100000x112.Idx) :
    ∃ t : Fin cfg2.N, (cfg2.win 3).flush t = true ∧ i ∈ ((cfg2.win 3).blk t).view.set := by
  have hi0 : (i 0).val < 100000 := (i 0).isLt
  have hi1 : (i 1).val < 112 := (i 1).isLt
  have hN : cfg2.N = 20 := N_2
  have ht : (i 0).val / 5000 < cfg2.N := by rw [hN]; omega
  generalize htd : (⟨(i 0).val / 5000, ht⟩ : Fin cfg2.N) = t
  have hv : t.val = (i 0).val / 5000 := by rw [← htd]
  obtain ⟨a0, a1, b0, b1, c0, c1, d0, d1⟩ := idx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 112 ≤ (i 1).val ∧ (i 1).val < win2_3.index t (1 : Fin 2) * 112 + 112
    omega

/-- Region 2: the item table, 20 blocks of 5000 nodes. -/
theorem arr2 (c : Dev nD) :
    (dat2 (F := Ideal) V c).arrAt 3 cfg2.N = Cert.Terms.mean3 (V c main_arg0) (V c main_v13) (V c main_v24) := by
  exact (dat2 (F := Ideal) V c).arrAt_eq_of_cover 3 (Cert.Terms.mean3 (V c main_arg0) (V c main_v13) (V c main_v24))
    (fun t _ => flushed2 V c t) cover2

/-! ## Region 3: one grid point, every block its whole array -/

/-- At the one grid point every window's block is block zero on every axis. -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0 :=
  (by decide +kernel : ∀ t : Fin grid3.N, _)

/-- The start vectors' block is the whole array. -/
theorem whole3_0 (t : Fin cfg3.N) (A : S512x112.Idx → EReal) : ((cfg3.win 0).blk t).view.read (Elt Ideal) A = A := by
  obtain ⟨a0, a1, b0, b1, c0, c1, d0, d1, d2, e0, e1⟩ := idx3 t
  funext j
  obtain ⟨p, q, rfl⟩ : ∃ (p : Fin 512) (q : Fin 112), j = ix2 p q := ⟨j 0, j 1, eq_ix2 j⟩
  show A (((cfg3.win 0).blk t).view.emb (ix2 p q)) = A (ix2 p q)
  refine congrArg A ?_
  funext a; apply Fin.ext
  match a with
  | ⟨0, _⟩ =>
    show win3_0.index t (0 : Fin 2) * 512 + 1 * p.val = p.val
    omega
  | ⟨1, _⟩ =>
    show win3_0.index t (1 : Fin 2) * 112 + 1 * q.val = q.val
    omega

/-- The first square matrix's block is the whole array. -/
theorem whole3_1 (t : Fin cfg3.N) (A : S512x512.Idx → EReal) : ((cfg3.win 1).blk t).view.read (Elt Ideal) A = A := by
  obtain ⟨a0, a1, b0, b1, c0, c1, d0, d1, d2, e0, e1⟩ := idx3 t
  funext j
  obtain ⟨p, q, rfl⟩ : ∃ (p : Fin 512) (q : Fin 512), j = ix2 p q := ⟨j 0, j 1, eq_ix2 j⟩
  show A (((cfg3.win 1).blk t).view.emb (ix2 p q)) = A (ix2 p q)
  refine congrArg A ?_
  funext a; apply Fin.ext
  match a with
  | ⟨0, _⟩ =>
    show win3_1.index t (0 : Fin 2) * 512 + 1 * p.val = p.val
    omega
  | ⟨1, _⟩ =>
    show win3_1.index t (1 : Fin 2) * 512 + 1 * q.val = q.val
    omega

/-- The second square matrix's block is the whole array. -/
theorem whole3_2 (t : Fin cfg3.N) (A : S512x512.Idx → EReal) : ((cfg3.win 2).blk t).view.read (Elt Ideal) A = A := by
  obtain ⟨a0, a1, b0, b1, c0, c1, d0, d1, d2, e0, e1⟩ := idx3 t
  funext j
  obtain ⟨p, q, rfl⟩ : ∃ (p : Fin 512) (q : Fin 512), j = ix2 p q := ⟨j 0, j 1, eq_ix2 j⟩
  show A (((cfg3.win 2).blk t).view.emb (ix2 p q)) = A (ix2 p q)
  refine congrArg A ?_
  funext a; apply Fin.ext
  match a with
  | ⟨0, _⟩ =>
    show win3_2.index t (0 : Fin 2) * 512 + 1 * p.val = p.val
    omega
  | ⟨1, _⟩ =>
    show win3_2.index t (1 : Fin 2) * 512 + 1 * q.val = q.val
    omega

/-- The two weight slabs' block is the whole array. -/
theorem whole3_3 (t : Fin cfg3.N) (A : S2x112x112.Idx → EReal) : ((cfg3.win 3).blk t).view.read (Elt Ideal) A = A := by
  obtain ⟨a0, a1, b0, b1, c0, c1, d0, d1, d2, e0, e1⟩ := idx3 t
  funext j
  obtain ⟨k, p, q, rfl⟩ : ∃ (k : Fin 2) (p : Fin 112) (q : Fin 112), j = ix3 k p q := ⟨j 0, j 1, j 2, eq_ix3 j⟩
  show A (((cfg3.win 3).blk t).view.emb (ix3 k p q)) = A (ix3 k p q)
  refine congrArg A ?_
  funext a; apply Fin.ext
  match a with
  | ⟨0, _⟩ =>
    show win3_3.index t (0 : Fin 3) * 2 + 1 * k.val = k.val
    omega
  | ⟨1, _⟩ =>
    show win3_3.index t (1 : Fin 3) * 112 + 1 * p.val = p.val
    omega
  | ⟨2, _⟩ =>
    show win3_3.index t (2 : Fin 3) * 112 + 1 * q.val = q.val
    omega

/-- The output's block is the whole array. -/
theorem whole3_4 (t : Fin cfg3.N) (A : S512x112.Idx → EReal) : ((cfg3.win 4).blk t).view.read (Elt Ideal) A = A := by
  obtain ⟨a0, a1, b0, b1, c0, c1, d0, d1, d2, e0, e1⟩ := idx3 t
  funext j
  obtain ⟨p, q, rfl⟩ : ∃ (p : Fin 512) (q : Fin 112), j = ix2 p q := ⟨j 0, j 1, eq_ix2 j⟩
  show A (((cfg3.win 4).blk t).view.emb (ix2 p q)) = A (ix2 p q)
  refine congrArg A ?_
  funext a; apply Fin.ext
  match a with
  | ⟨0, _⟩ =>
    show win3_4.index t (0 : Fin 2) * 512 + 1 * p.val = p.val
    omega
  | ⟨1, _⟩ =>
    show win3_4.index t (1 : Fin 2) * 112 + 1 * q.val = q.val
    omega

/-- So the body's result on the blocks, read through the output's block, is the body's result on the arrays. -/
theorem blk3_eq (t : Fin cfg3.N) (A0 : S512x112.Idx → EReal) (A1 A2 : S512x512.Idx → EReal) (A3 : S2x112x112.Idx → EReal) :
    out3_4 (F := Ideal) (((cfg3.win 0).blk t).view.read (Elt Ideal) A0) (((cfg3.win 1).blk t).view.read (Elt Ideal) A1)
        (((cfg3.win 2).blk t).view.read (Elt Ideal) A2) (((cfg3.win 3).blk t).view.read (Elt Ideal) A3)
      = ((cfg3.win 4).blk t).view.read (Elt Ideal) (out3_4 (F := Ideal) A0 A1 A2 A3) := by
  rw [whole3_0 t A0, whole3_1 t A1, whole3_2 t A2, whole3_3 t A3, whole3_4 t]

/-- What the one grid point writes back is the body's result on the four arrays, read through the output's block. -/
theorem flushed3 (c : Dev nD) (t : Fin cfg3.N) :
    (dat3 (F := Ideal) V c).flushed 4 t
      = ((cfg3.win 4).blk t).view.read (Elt Ideal)
          (out3_4 (F := Ideal) (V c main_v37) (V c main_arg4) (V c main_arg5) (V c main_arg8)) := by
  show (cfg3.win 4).cut (grid3.coords t) ((dat3 V c).after 4 t) = _
  rw [after3_4]
  unfold iblk3
  exact blk3_eq t (V c main_v37) (V c main_arg4) (V c main_arg5) (V c main_arg8)

/-- An entry of the output is in point `t`'s block iff each coordinate is in the block's range on its axis. -/
theorem mem_blk3 (t : Fin cfg3.N) (i : S512x112.Idx) :
    i ∈ ((cfg3.win 4).blk t).view.set ↔ ∀ a : Fin 2, win3_4.index t a * S512x112.size a ≤ (i a).val
      ∧ (i a).val < win3_4.index t a * S512x112.size a + S512x112.size a := by
  show i ∈ ((View.whole main_v38).slice (win3_4.rect t)).set ↔ _
  rw [View.set_slice_whole, Rect.mem_set_unit]
  exact Iff.rfl

/-- The one point's block is the whole output. -/
theorem cover3 (i : S512x112.Idx) :
    ∃ t : Fin cfg3.N, (cfg3.win 4).flush t = true ∧ i ∈ ((cfg3.win 4).blk t).view.set := by
  have hi0 : (i 0).val < 512 := (i 0).isLt
  have hi1 : (i 1).val < 112 := (i 1).isLt
  obtain ⟨a0, a1, b0, b1, c0, c1, d0, d1, d2, e0, e1⟩ := idx3 t3_0
  refine ⟨t3_0, flush3_4 t3_0, ?_⟩
  rw [mem_blk3]
  intro a
  match a with
  | ⟨0, _⟩ =>
    show win3_4.index t3_0 (0 : Fin 2) * 512 ≤ (i 0).val ∧ (i 0).val < win3_4.index t3_0 (0 : Fin 2) * 512 + 512
    omega
  | ⟨1, _⟩ =>
    show win3_4.index t3_0 (1 : Fin 2) * 112 ≤ (i 1).val ∧ (i 1).val < win3_4.index t3_0 (1 : Fin 2) * 112 + 112
    omega

/-- Region 3: one grid point, the whole output block. -/
theorem arr3 (c : Dev nD) :
    (dat3 (F := Ideal) V c).arrAt 4 cfg3.N
      = out3_4 (F := Ideal) (V c main_v37) (V c main_arg4) (V c main_arg5) (V c main_arg8) := by
  exact (dat3 (F := Ideal) V c).arrAt_eq_of_cover 4
    (out3_4 (F := Ideal) (V c main_v37) (V c main_arg4) (V c main_arg5) (V c main_arg8))
    (fun t _ => flushed3 V c t) cover3

end Cert.KernelIdeal.Blocks

end
-- ==== Proof.KernelValue.lean ====
/-
  The first program's result array as one term of its argument arrays. The run's fold is read boundary by boundary:
  what the host operations before the first region leave (the padded edge columns and the first gathered table), each
  region's output array as a whole-array function of the arrays it finds, each later host stretch from the boundary
  before it, and every buffer a stretch or a region does not write carried over unchanged.
-/
import proofs.«153129_j82102594830932_1_alg».proof.Proof.Gen.KernelIdeal.Frame
import proofs.«153129_j82102594830932_1_alg».proof.Proof.Terms
import proofs.«153129_j82102594830932_1_alg».proof.Proof.Blocks
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Terms

variable (m : (ℓ : Loc nD τ sig) → Buf (Elt Ideal) ℓ) (ρ : Dev nD → PrngReg) (c : Dev nD)

/-- A buffer no operation of a host stretch writes holds after the stretch what it held before. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the first region: the padded columns and the first gathered table -/

/-- The fold through the seven host stretches before region 0, opened as one line of operations. -/
local macro "open_prefix" : tactic =>
  `(tactic| (dsimp only [W7, W6, W5, W4, W3, W2, W1, W0, hostOps0_6, hostOps0_5, hostOps0_4, hostOps0_3, hostOps0_2, hostOps0_1, hostOps0]
             after_results))

theorem v0_at7 : W7 m ρ c (Proc.devRef .tc main_v0) = K.padF (m ((c : Thread nD τ).loc main_arg1)) := by
  open_prefix
  rfl

theorem v1_at7 : W7 m ρ c (Proc.devRef .tc main_v1) = K.padW (m ((c : Thread nD τ).loc main_arg3)) := by
  open_prefix
  rfl

theorem v2_at7 : W7 m ρ c (Proc.devRef .tc main_v2) = K.padW (m ((c : Thread nD τ).loc main_arg2)) := by
  open_prefix
  rfl

set_option maxHeartbeats 4000000 in
theorem v9_at7 : W7 m ρ c (Proc.devRef .tc main_v9)
    = Host.gather gather_S100000x112_S1015808x1_S1015808x112_1_0_n_n_0_1_1112 (m ((c : Thread nD τ).loc main_arg0))
        (K.wrap (K.padW (m ((c : Thread nD τ).loc main_arg3)))) := by
  dsimp only [W7, W6, W5, W4, W3, W2, W1, W0, hostOps0_6, hostOps0_5, hostOps0_4, hostOps0_3, hostOps0_2, hostOps0_1, hostOps0]
  after_results_simp <;> rfl

/-! ## Region 0 and the stretch after it: the first propagation step -/

theorem v10_at8 : W8 m ρ c (Proc.devRef .tc main_v10)
    = edgeMsg (K.padF (m ((c : Thread nD τ).loc main_arg1))) (Host.gather gather_S100000x112_S1015808x1_S1015808x112_1_0_n_n_0_1_1112 (m ((c : Thread nD τ).loc main_arg0)) (K.wrap (K.padW (m ((c : Thread nD τ).loc main_arg3))))) :=
  (W8_arr m ρ c 2).trans ((Blocks.arr0 (V7 m ρ) c).trans (congrArg₂ edgeMsg (v0_at7 m ρ c) (v9_at7 m ρ c)))

theorem v0_at8 : W8 m ρ c (Proc.devRef .tc main_v0) = K.padF (m ((c : Thread nD τ).loc main_arg1)) :=
  calc W8 m ρ c (Proc.devRef .tc main_v0)
    _ = W7 m ρ c (Proc.devRef .tc main_v0) := (W8_arr m ρ c 0).trans (((dat0 (V7 m ρ) c).arrAt_in 0 rfl _).trans (A_eq0 (V7 m ρ) c 0))
    _ = _ := v0_at7 m ρ c

theorem v1_at8 : W8 m ρ c (Proc.devRef .tc main_v1) = K.padW (m ((c : Thread nD τ).loc main_arg3)) :=
  (W8_of_ne m ρ c main_v1 (by decide)).trans (v1_at7 m ρ c)

theorem v2_at8 : W8 m ρ c (Proc.devRef .tc main_v2) = K.padW (m ((c : Thread nD τ).loc main_arg2)) :=
  (W8_of_ne m ρ c main_v2 (by decide)).trans (v2_at7 m ρ c)

theorem v13_at9 : W9 m ρ c (Proc.devRef .tc main_v13) = (K.step (m ((c : Thread nD τ).loc main_arg0)) (m ((c : Thread nD τ).loc main_arg1)) (m ((c : Thread nD τ).loc main_arg2)) (m ((c : Thread nD τ).loc main_arg3))) := by
  dsimp only [W9, hostOps1]
  after_results
  rw [v2_at8, v10_at8]
  rfl

theorem v20_at9 : W9 m ρ c (Proc.devRef .tc main_v20)
    = Host.gather gather_S100000x112_S1015808x1_S1015808x112_1_0_n_n_0_1_1112 (K.step (m ((c : Thread nD τ).loc main_arg0)) (m ((c : Thread nD τ).loc main_arg1)) (m ((c : Thread nD τ).loc main_arg2)) (m ((c : Thread nD τ).loc main_arg3))) (K.wrap (K.padW (m ((c : Thread nD τ).loc main_arg3)))) := by
  dsimp only [W9, hostOps1]
  after_results
  rw [v1_at8, v2_at8, v10_at8]
  rfl

theorem v0_at9 : W9 m ρ c (Proc.devRef .tc main_v0) = K.padF (m ((c : Thread nD τ).loc main_arg1)) :=
  (by host_keep hostOps1 : W9 m ρ c (Proc.devRef .tc main_v0) = W8 m ρ c (Proc.devRef .tc main_v0)).trans (v0_at8 m ρ c)

theorem v2_at9 : W9 m ρ c (Proc.devRef .tc main_v2) = K.padW (m ((c : Thread nD τ).loc main_arg2)) :=
  (by host_keep hostOps1 : W9 m ρ c (Proc.devRef .tc main_v2) = W8 m ρ c (Proc.devRef .tc main_v2)).trans (v2_at8 m ρ c)

/-! ## Region 1 and the stretch after it: the second propagation step -/

theorem v21_at10 : W10 m ρ c (Proc.devRef .tc main_v21)
    = edgeMsg (K.padF (m ((c : Thread nD τ).loc main_arg1))) (Host.gather gather_S100000x112_S1015808x1_S1015808x112_1_0_n_n_0_1_1112 (K.step (m ((c : Thread nD τ).loc main_arg0)) (m ((c : Thread nD τ).loc main_arg1)) (m ((c : Thread nD τ).loc main_arg2)) (m ((c : Thread nD τ).loc main_arg3))) (K.wrap (K.padW (m ((c : Thread nD τ).loc main_arg3))))) :=
  (W10_arr m ρ c 2).trans ((Blocks.arr1 (V9 m ρ) c).trans (congrArg₂ edgeMsg (v0_at9 m ρ c) (v20_at9 m ρ c)))

theorem v2_at10 : W10 m ρ c (Proc.devRef .tc main_v2) = K.padW (m ((c : Thread nD τ).loc main_arg2)) :=
  (W10_of_ne m ρ c main_v2 (by decide)).trans (v2_at9 m ρ c)

theorem v13_at10 : W10 m ρ c (Proc.devRef .tc main_v13) = (K.step (m ((c : Thread nD τ).loc main_arg0)) (m ((c : Thread nD τ).loc main_arg1)) (m ((c : Thread nD τ).loc main_arg2)) (m ((c : Thread nD τ).loc main_arg3))) :=
  (W10_of_ne m ρ c main_v13 (by decide)).trans (v13_at9 m ρ c)

theorem v24_at11 : W11 m ρ c (Proc.devRef .tc main_v24) = (K.step (K.step (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) := by
  dsimp only [W11, hostOps2]
  after_results
  rw [v2_at10, v21_at10]
  rfl

theorem v13_at11 : W11 m ρ c (Proc.devRef .tc main_v13) = (K.step (m ((c : Thread nD τ).loc main_arg0)) (m ((c : Thread nD τ).loc main_arg1)) (m ((c : Thread nD τ).loc main_arg2)) (m ((c : Thread nD τ).loc main_arg3))) :=
  (by host_keep hostOps2 : W11 m ρ c (Proc.devRef .tc main_v13) = W10 m ρ c (Proc.devRef .tc main_v13)).trans (v13_at10 m ρ c)

/-- The embedding as region 2 finds it: read forward from there to the end of the run it is never written, and the
    run ends with it as launched. -/
theorem arg0_at11 : W11 m ρ c (Proc.devRef .tc main_arg0) = (m ((c : Thread nD τ).loc main_arg0)) :=
  calc W11 m ρ c (Proc.devRef .tc main_arg0)
    _ = W12 m ρ c (Proc.devRef .tc main_arg0) := ((W12_arr m ρ c 0).trans (((dat2 (V11 m ρ) c).arrAt_in 0 rfl _).trans (A_eq2 (V11 m ρ) c 0))).symm
    _ = W13 m ρ c (Proc.devRef .tc main_arg0) := (by host_keep hostOps3 : W13 m ρ c (Proc.devRef .tc main_arg0) = W12 m ρ c (Proc.devRef .tc main_arg0)).symm
    _ = W14 m ρ c (Proc.devRef .tc main_arg0) := (W14_of_ne m ρ c main_arg0 (by decide)).symm
    _ = _ := W14_main_arg0 m ρ c

/-! ## Region 2 and the stretch after it: the item table and the sessions' start vectors -/

theorem v25_at12 : W12 m ρ c (Proc.devRef .tc main_v25) = (mean3 (m ((c : Thread nD τ).loc main_arg0)) (K.step (m ((c : Thread nD τ).loc main_arg0)) (m ((c : Thread nD τ).loc main_arg1)) (m ((c : Thread nD τ).loc main_arg2)) (m ((c : Thread nD τ).loc main_arg3))) (K.step (K.step (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3)))) := by
  refine (W12_arr m ρ c 3).trans ((Blocks.arr2 (V11 m ρ) c).trans ?_)
  rw [show V11 m ρ c main_arg0 = _ from arg0_at11 m ρ c, show V11 m ρ c main_v13 = _ from v13_at11 m ρ c,
    show V11 m ρ c main_v24 = _ from v24_at11 m ρ c]

theorem arg6_at12 : W12 m ρ c (Proc.devRef .tc main_arg6) = (m ((c : Thread nD τ).loc main_arg6)) :=
  calc W12 m ρ c (Proc.devRef .tc main_arg6)
    _ = W13 m ρ c (Proc.devRef .tc main_arg6) := (by host_keep hostOps3 : W13 m ρ c (Proc.devRef .tc main_arg6) = W12 m ρ c (Proc.devRef .tc main_arg6)).symm
    _ = W14 m ρ c (Proc.devRef .tc main_arg6) := (W14_of_ne m ρ c main_arg6 (by decide)).symm
    _ = _ := W14_main_arg6 m ρ c

theorem arg7_at12 : W12 m ρ c (Proc.devRef .tc main_arg7) = (m ((c : Thread nD τ).loc main_arg7)) :=
  calc W12 m ρ c (Proc.devRef .tc main_arg7)
    _ = W13 m ρ c (Proc.devRef .tc main_arg7) := (by host_keep hostOps3 : W13 m ρ c (Proc.devRef .tc main_arg7) = W12 m ρ c (Proc.devRef .tc main_arg7)).symm
    _ = W14 m ρ c (Proc.devRef .tc main_arg7) := (W14_of_ne m ρ c main_arg7 (by decide)).symm
    _ = _ := W14_main_arg7 m ρ c

set_option maxHeartbeats 4000000 in
theorem v37_at13 : W13 m ρ c (Proc.devRef .tc main_v37) = K.pool (mean3 (m ((c : Thread nD τ).loc main_arg0)) (K.step (m ((c : Thread nD τ).loc main_arg0)) (m ((c : Thread nD τ).loc main_arg1)) (m ((c : Thread nD τ).loc main_arg2)) (m ((c : Thread nD τ).loc main_arg3))) (K.step (K.step (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3)))) (m ((c : Thread nD τ).loc main_arg6)) (m ((c : Thread nD τ).loc main_arg7)) := by
  dsimp only [W13, hostOps3]
  after_results_simp
  repeat (first
    | rw [unary_result] | rw [nullary_result]
    | (rw [unary_result_ne]; rotate_left; decide)
    | (rw [nullary_result_ne]; rotate_left; decide))
  rw [v25_at12, arg6_at12, arg7_at12]
  rfl

/-! ## Region 3: the session stage -/

theorem arg4_at13 : W13 m ρ c (Proc.devRef .tc main_arg4) = (m ((c : Thread nD τ).loc main_arg4)) :=
  ((W14_arr m ρ c 1).trans (((dat3 (V13 m ρ) c).arrAt_in 1 rfl _).trans (A_eq3 (V13 m ρ) c 1))).symm.trans (W14_main_arg4 m ρ c)

theorem arg5_at13 : W13 m ρ c (Proc.devRef .tc main_arg5) = (m ((c : Thread nD τ).loc main_arg5)) :=
  ((W14_arr m ρ c 2).trans (((dat3 (V13 m ρ) c).arrAt_in 2 rfl _).trans (A_eq3 (V13 m ρ) c 2))).symm.trans (W14_main_arg5 m ρ c)

theorem arg8_at13 : W13 m ρ c (Proc.devRef .tc main_arg8) = (m ((c : Thread nD τ).loc main_arg8)) :=
  ((W14_arr m ρ c 3).trans (((dat3 (V13 m ρ) c).arrAt_in 3 rfl _).trans (A_eq3 (V13 m ρ) c 3))).symm.trans (W14_main_arg8 m ρ c)

/-- THE RESULT: the last region's output array, the session stage of the start vectors pooled from the item table,
    itself the mean of the embedding and its two propagated copies over the padded edge list. -/
theorem result : W14 m ρ c (Proc.devRef .tc main_v38)
    = out3_4 (F := Ideal) (K.pool (mean3 (m ((c : Thread nD τ).loc main_arg0)) (K.step (m ((c : Thread nD τ).loc main_arg0)) (m ((c : Thread nD τ).loc main_arg1)) (m ((c : Thread nD τ).loc main_arg2)) (m ((c : Thread nD τ).loc main_arg3))) (K.step (K.step (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3)))) (m ((c : Thread nD τ).loc main_arg6)) (m ((c : Thread nD τ).loc main_arg7))) (m ((c : Thread nD τ).loc main_arg4)) (m ((c : Thread nD τ).loc main_arg5)) (m ((c : Thread nD τ).loc main_arg8)) := by
  refine (W14_arr m ρ c 4).trans ((Blocks.arr3 (V13 m ρ) c).trans ?_)
  rw [show V13 m ρ c main_v37 = _ from v37_at13 m ρ c, show V13 m ρ c main_arg4 = _ from arg4_at13 m ρ c,
    show V13 m ρ c main_arg5 = _ from arg5_at13 m ρ c, show V13 m ρ c main_arg8 = _ from arg8_at13 m ρ c]

end Cert.KernelIdeal.Chain

end
-- ==== Proof.RefValue.lean ====
/-
  The second program's result as a composition of its stages: the item table (the mean of the embedding and its two
  propagated copies), the sessions' start vectors pooled from it, and the session stage of those. Each equation says
  that the generated stage, unfolded, is the named composition — the same operations in the same order.
-/
import proofs.«153129_j82102594830932_1_alg».proof.Proof.Gen.ReferenceIdeal.Read
import proofs.«153129_j82102594830932_1_alg».proof.Proof.Terms

set_option maxRecDepth 16384

noncomputable section

namespace Cert.ReferenceIdeal.RefValue

open Cert.ReferenceIdeal Cert.ReferenceIdeal.Gen Cert.ReferenceIdeal.Read Idealize.ShloMosaic Cert.Terms

variable (x0 : FVec Ideal S100000x112 .f32) (x1 : FVec Ideal S1000000 .f32) (x2 x3 : IVec S1000000 32)
  (x4 x5 : FVec Ideal S512x512 .f32) (x6 : IVec S512x50 32) (x7 : FVec Ideal S512x1 .f32) (x8 : FVec Ideal S2x112x112 .f32)

/-- The first propagated copy. -/
theorem step1_eq : val_main_v12 (F := Ideal) x0 x1 x2 x3 = R.step x0 x1 x2 x3 := rfl

/-- The second propagated copy: the step applied to the first. -/
theorem step2_eq : val_main_v26 (F := Ideal) x0 x1 x2 x3 = R.step (R.step x0 x1 x2 x3) x1 x2 x3 := rfl

/-- The item table. -/
theorem emb_eq : val_main_v29 (F := Ideal) x0 x1 x2 x3 = R.itemEmb x0 x1 x2 x3 := rfl

/-- The sessions' start vectors. -/
theorem pool_eq : val_main_v41 (F := Ideal) x0 x1 x2 x3 x6 x7 = R.pool (R.itemEmb x0 x1 x2 x3) x6 x7 := rfl

/-- The result: the session stage of the start vectors. -/
theorem result_eq : val_main_v66 (F := Ideal) x0 x1 x2 x3 x4 x5 x6 x7 x8
    = R.sess (R.pool (R.itemEmb x0 x1 x2 x3) x6 x7) x4 x5 x8 := rfl

end Cert.ReferenceIdeal.RefValue

end
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.StepBridge.lean ====
/-
  The padded edge list propagates exactly as the edge list itself, and a product with 1/3 is the quotient by 3.
-/
import proofs.«153129_j82102594830932_1_alg».proof.Proof.Terms
import proofs.«153129_j82102594830932_1_alg».proof.Proof.LibGatherScatter
import proofs.«153129_j82102594830932_1_alg».proof.Proof.LibBlockSum
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx

/-! ## Layout operations of these programs read at an index -/

/-- The wrap of one source-node word: a negative word has the node count added. -/
def wrapWord (v : BitVec 32) : BitVec 32 :=
  Scalar.select (IntOp.cmpi .slt v 0#32) (IntOp.addi v 100000#32) v

/-- A vector made a one-column matrix, read at row e, is the vector's entry e. -/
theorem col_apply {α : Type} {E : Nat} (hE : E ≠ 1)
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] h x (ix2 e (0 : Fin 1)) = x (ix1 e) :=
  broadcastInDim_apply _ h x (ix2 e (0 : Fin 1)) (ix1 e) (fun a => match a with
    | ⟨0, _⟩ => by show e.val = if E = 1 then 0 else e.val; rw [if_neg hE])

/-- A scalar spread over a shape reads the scalar everywhere. -/
theorem splat_apply {α : Type} {t : Shape}
    (h : (⟨0, ![]⟩ : Shape).BroadcastsInDim t (![] : Fin 0 → Fin t.rank))
    (y : (⟨0, ![]⟩ : Shape).Idx → α) (i : t.Idx) :
    broadcastInDim t ![] h y i = y ix0 :=
  broadcastInDim_apply _ h y i ix0 (fun a => a.elim0)

/-- The first program's start-index column at row e is the wrap of the word e. -/
theorem K_wrap_apply (c : IVec Cert.KernelIdeal.S1015808 32) (e : Fin 1015808) :
    Cert.Terms.K.wrap c (ix2 e (0 : Fin 1)) = wrapWord (c (ix1 e)) := by
  unfold Cert.Terms.K.wrap
  rw [col_apply (by decide)]
  show Scalar.select (IntOp.cmpi .slt (c (ix1 e))
      (broadcastInDim Cert.KernelIdeal.S1015808 ![] Cert.KernelIdeal.Gen.bcast_S_S1015808 (constantI Cert.KernelIdeal.S_ 32 0#32) (ix1 e)))
    (IntOp.addi (c (ix1 e))
      (broadcastInDim Cert.KernelIdeal.S1015808 ![] Cert.KernelIdeal.Gen.bcast_S_S1015808 (constantI Cert.KernelIdeal.S_ 32 100000#32) (ix1 e)))
    (c (ix1 e)) = _
  rw [splat_apply, splat_apply]
  rfl

/-- The second program's start-index column at row e is the wrap of the word e. -/
theorem R_wrap_apply (c : IVec Cert.ReferenceIdeal.S1000000 32) (e : Fin 1000000) :
    Cert.Terms.R.wrap c (ix2 e (0 : Fin 1)) = wrapWord (c (ix1 e)) := by
  unfold Cert.Terms.R.wrap
  rw [col_apply (by decide)]
  show Scalar.select (IntOp.cmpi .slt (c (ix1 e))
      (broadcastInDim Cert.ReferenceIdeal.S1000000 ![] Cert.ReferenceIdeal.Gen.bcast_S_S1000000 (constantI Cert.ReferenceIdeal.S_ 32 0#32) (ix1 e)))
    (IntOp.addi (c (ix1 e))
      (broadcastInDim Cert.ReferenceIdeal.S1000000 ![] Cert.ReferenceIdeal.Gen.bcast_S_S1000000 (constantI Cert.ReferenceIdeal.S_ 32 100000#32) (ix1 e)))
    (c (ix1 e)) = _
  rw [splat_apply, splat_apply]
  rfl

/-- A one-column matrix spread over C columns, read at (e, q), is the column's row e. -/
theorem colSpread_apply {α : Type} {E C : Nat} (hE : E ≠ 1)
    (h : (⟨2, ![E, 1]⟩ : Shape).BroadcastsInDim ⟨2, ![E, C]⟩ (![0, 1] : Fin 2 → Fin 2))
    (x : (⟨2, ![E, 1]⟩ : Shape).Idx → α) (e : Fin E) (q : Fin C) :
    broadcastInDim ⟨2, ![E, C]⟩ ![0, 1] h x (ix2 e q) = x (ix2 e (0 : Fin 1)) :=
  broadcastInDim_apply _ h x (ix2 e q) (ix2 e (0 : Fin 1)) (fun a => match a with
    | ⟨0, _⟩ => by show e.val = if E = 1 then 0 else e.val; rw [if_neg hE]
    | ⟨1, _⟩ => by show (0 : Nat) = if (1 : Nat) = 1 then 0 else q.val; rw [if_pos rfl])

/-! ## The padded columns below and above the edge count -/

/-- Below the edge count a padded word column is the column itself. -/
theorem padW_lo (x : IVec Cert.KernelIdeal.S1000000 32) (e : Fin 1000000) :
    Cert.Terms.K.padW x (ix1 (⟨e.val, by omega⟩ : Fin 1015808)) = x (ix1 e) := by
  unfold Cert.Terms.K.padW
  exact pad_apply_of_inside _ _ _ x _ _ _ (ix1 (⟨e.val, by omega⟩ : Fin 1015808)) (ix1 e) (fun a => match a with
    | ⟨0, _⟩ => by show e.val = 0 + e.val * (0 + 1); omega)

/-- From the edge count on a padded word column holds the word 0. -/
theorem padW_hi (x : IVec Cert.KernelIdeal.S1000000 32) (e : Fin 15808) :
    Cert.Terms.K.padW x (ix1 (⟨1000000 + e.val, by omega⟩ : Fin 1015808)) = 0#32 := by
  unfold Cert.Terms.K.padW
  rw [pad_apply_of_not_inside _ _ _ x _ _ _ (ix1 (⟨1000000 + e.val, by omega⟩ : Fin 1015808)) 0 (by
    show ¬(0 ≤ 1000000 + e.val ∧ (1000000 + e.val - 0) % (0 + 1) = 0 ∧ (1000000 + e.val - 0) / (0 + 1) < 1000000)
    omega)]
  rfl

/-- Below the edge count the padded weights are the weights. -/
theorem padF_lo (x : FVec Ideal Cert.KernelIdeal.S1000000 .f32) (e : Fin 1000000) :
    Cert.Terms.K.padF x (ix1 (⟨e.val, by omega⟩ : Fin 1015808)) = x (ix1 e) := by
  unfold Cert.Terms.K.padF
  exact pad_apply_of_inside _ _ _ x _ _ _ (ix1 (⟨e.val, by omega⟩ : Fin 1015808)) (ix1 e) (fun a => match a with
    | ⟨0, _⟩ => by show e.val = 0 + e.val * (0 + 1); omega)

/-- From the edge count on the padded weights are the float of the integer 0, which is 0. -/
theorem padF_hi (x : FVec Ideal Cert.KernelIdeal.S1000000 .f32) (e : Fin 15808) :
    Cert.Terms.K.padF x (ix1 (⟨1000000 + e.val, by omega⟩ : Fin 1015808)) = 0 := by
  unfold Cert.Terms.K.padF
  rw [pad_apply_of_not_inside _ _ _ x _ _ _ (ix1 (⟨1000000 + e.val, by omega⟩ : Fin 1015808)) 0 (by
    show ¬(0 ≤ 1000000 + e.val ∧ (1000000 + e.val - 0) % (0 + 1) = 0 ∧ (1000000 + e.val - 0) / (0 + 1) < 1000000)
    omega)]
  show (((0#32 : BitVec 32).toInt : ℝ) : EReal) = 0
  simp

/-! ## The two programs' dimension-number records and messages -/

/-- The first program's scatter and gather records are the row scatter's and the row gather's dimension numbers. -/
theorem scatterK_eq : Cert.KernelIdeal.scatter_S100000x112_S1015808x1_S1015808x112_1_0_0_1
    = rowScatterDims 100000 1015808 112 Cert.KernelIdeal.Gen.scatter_S100000x112_S1015808x1_S1015808x112_1_0_0_1_wf := rfl
theorem gatherK_eq : Cert.KernelIdeal.gather_S100000x112_S1015808x1_S1015808x112_1_0_n_n_0_1_1112
    = rowGatherDims 100000 1015808 112 Cert.KernelIdeal.Gen.gather_S100000x112_S1015808x1_S1015808x112_1_0_n_n_0_1_1112_wf := rfl
/-- So are the second program's. -/
theorem scatterR_eq : Cert.ReferenceIdeal.scatter_S100000x112_S1000000x1_S1000000x112_1_0_0_1
    = rowScatterDims 100000 1000000 112 Cert.ReferenceIdeal.Gen.scatter_S100000x112_S1000000x1_S1000000x112_1_0_0_1_wf := rfl
theorem gatherR_eq : Cert.ReferenceIdeal.gather_S100000x112_S1000000x1_S1000000x112_1_0_n_n_0_1_1112
    = rowGatherDims 100000 1000000 112 Cert.ReferenceIdeal.Gen.gather_S100000x112_S1000000x1_S1000000x112_1_0_n_n_0_1_1112_wf := rfl

/-- An edge's message at (e, q): the edge's weight times the gathered entry. -/
theorem edgeMsg_apply (v : (⟨1, ![1015808]⟩ : Shape).Idx → EReal) (g : (⟨2, ![1015808, 112]⟩ : Shape).Idx → EReal)
    (e : Fin 1015808) (q : Fin 112) : Cert.Terms.edgeMsg v g (ix2 e q) = v (ix1 e) * g (ix2 e q) := rfl

/-! ## A row scatter-add of weighted gathered rows at an index -/

/-- A row scatter-add of weighted gathered rows, read at (p, q): the operand's entry plus, over ALL update rows e, the
    weight of e times the table's entry in column q of the row the column word of e names (clamped), when the row word
    of e names p, and 0 when it does not. Stated for dimension-number records equal to the row scatter's and the row
    gather's, and for any message array that is entrywise weight times gathered entry. -/
theorem rowStep_apply {N E C : Nat} (hN : 0 < N)
    {wfS : ScatterDims.WF ⟨2, ![N, C]⟩ ⟨2, ![E, 1]⟩ ⟨2, ![E, C]⟩ [1] [0] [0] 1}
    {wfG : GatherDims.WF ⟨2, ![N, C]⟩ ⟨2, ![E, 1]⟩ ⟨2, ![E, C]⟩ [1] [0] [] [0] [] 1 ![1, C]}
    (dS : ScatterDims ⟨2, ![N, C]⟩ ⟨2, ![E, 1]⟩ ⟨2, ![E, C]⟩) (hS : dS = rowScatterDims N E C wfS)
    (dG : GatherDims ⟨2, ![N, C]⟩ ⟨2, ![E, 1]⟩ ⟨2, ![E, C]⟩) (hG : dG = rowGatherDims N E C wfG)
    (Z T : FVec Ideal ⟨2, ![N, C]⟩ .f32) (rows cols : IVec ⟨2, ![E, 1]⟩ 32)
    (msg : FVec Ideal ⟨2, ![E, C]⟩ .f32) (wt : Fin E → EReal)
    (hmsg : ∀ (e : Fin E) (q : Fin C), msg (ix2 e q) = wt e * Host.gather dG T cols (ix2 e q))
    (p : Fin N) (q : Fin C) :
    Host.scatterAdd (F := Ideal) dS Z rows msg (ix2 p q)
      = Z (ix2 p q) + ∑ e : Fin E,
          if landRow N (rows (ix2 e (0 : Fin 1))) = some p then
            wt e * T (ix2 (clampRow N hN (cols (ix2 e (0 : Fin 1)))) q)
          else 0 := by
  subst hS hG
  show Ideal.hostScatterAdd (rowScatterDims N E C wfS) Z rows msg (ix2 p q) = _
  rw [scatterAdd_rows_apply, Finset.sum_filter]
  refine congrArg (Z (ix2 p q) + ·) (Finset.sum_congr rfl fun e _ => ?_)
  rw [hmsg, gather_rows_apply hN]

/-! ## Each program's step at an index -/

/-- The first program's step at (n, j): the zero table's entry plus, over the padded edges whose row word names n,
    the padded weight times the table's entry in column j of the row the wrapped, clamped column word names. -/
theorem K_step_apply (T : FVec Ideal Cert.KernelIdeal.S100000x112 .f32) (x1 : FVec Ideal Cert.KernelIdeal.S1000000 .f32)
    (x2 x3 : IVec Cert.KernelIdeal.S1000000 32) (n : Fin 100000) (j : Fin 112) :
    Cert.Terms.K.step T x1 x2 x3 (ix2 n j)
      = broadcastInDim Cert.KernelIdeal.S100000x112 ![] Cert.KernelIdeal.Gen.bcast_S_S100000x112
          (constant (F := Ideal) Cert.KernelIdeal.S_ .f32 0x00000000#32) (ix2 n j)
        + ∑ e : Fin 1015808,
            if landRow 100000 (Cert.Terms.K.padW x2 (ix1 e)) = some n then
              Cert.Terms.K.padF x1 (ix1 e)
                * T (ix2 (clampRow 100000 (by decide) (wrapWord (Cert.Terms.K.padW x3 (ix1 e)))) j)
            else 0 := by
  unfold Cert.Terms.K.step
  refine (rowStep_apply (by decide) _ scatterK_eq _ gatherK_eq _ T _ _ _
    (fun e => Cert.Terms.K.padF x1 (ix1 e)) (fun e q => edgeMsg_apply _ _ e q) n j).trans ?_
  refine congrArg (_ + ·) (Finset.sum_congr rfl fun e _ => ?_)
  rw [col_apply (E := 1015808) (by decide), K_wrap_apply]

/-- The second program's message at (e, q): the edge's weight times the gathered entry. -/
theorem R_msg_apply (x1 : FVec Ideal Cert.ReferenceIdeal.S1000000 .f32) (g : FVec Ideal Cert.ReferenceIdeal.S1000000x112 .f32)
    (e : Fin 1000000) (q : Fin 112) :
    mulf (broadcastInDim Cert.ReferenceIdeal.S1000000x112 ![0, 1] Cert.ReferenceIdeal.Gen.bcast_S1000000x1_S1000000x112_0_1
        (broadcastInDim Cert.ReferenceIdeal.S1000000x1 ![0] Cert.ReferenceIdeal.Gen.bcast_S1000000_S1000000x1_0 x1)) g (ix2 e q)
      = x1 (ix1 e) * g (ix2 e q) := by
  rw [mulf_apply, colSpread_apply (E := 1000000) (by decide), col_apply (E := 1000000) (by decide)]

/-- The second program's step at (n, j): the zero table's entry plus, over the edges whose row word names n, the
    weight times the table's entry in column j of the row the wrapped, clamped column word names. -/
theorem R_step_apply (T : FVec Ideal Cert.ReferenceIdeal.S100000x112 .f32) (x1 : FVec Ideal Cert.ReferenceIdeal.S1000000 .f32)
    (x2 x3 : IVec Cert.ReferenceIdeal.S1000000 32) (n : Fin 100000) (j : Fin 112) :
    Cert.Terms.R.step T x1 x2 x3 (ix2 n j)
      = broadcastInDim Cert.ReferenceIdeal.S100000x112 ![] Cert.ReferenceIdeal.Gen.bcast_S_S100000x112
          (constant (F := Ideal) Cert.ReferenceIdeal.S_ .f32 0x00000000#32) (ix2 n j)
        + ∑ e : Fin 1000000,
            if landRow 100000 (x2 (ix1 e)) = some n then
              x1 (ix1 e) * T (ix2 (clampRow 100000 (by decide) (wrapWord (x3 (ix1 e)))) j)
            else 0 := by
  unfold Cert.Terms.R.step
  refine (rowStep_apply (by decide) _ scatterR_eq _ gatherR_eq _ T _ _ _
    (fun e => x1 (ix1 e)) (fun e q => R_msg_apply x1 _ e q) n j).trans ?_
  refine congrArg (_ + ·) (Finset.sum_congr rfl fun e _ => ?_)
  rw [col_apply (E := 1000000) (by decide), R_wrap_apply]

/-! ## The padding terms drop out of the sum -/

/-- A sum of m + k terms whose last k terms are 0 is the sum of its first m terms. -/
theorem sum_tail_zero {M : Type*} [AddCommMonoid M] (m k : Nat) (f : Fin (m + k) → M) (g : Fin m → M)
    (hlo : ∀ e : Fin m, f ⟨e.val, by omega⟩ = g e) (hhi : ∀ e : Fin k, f ⟨m + e.val, by omega⟩ = 0) :
    ∑ e, f e = ∑ e, g e := by
  rw [LibBlockSum.sum_split m k f, Finset.sum_eq_zero (fun e _ => hhi e), add_zero]
  exact Finset.sum_congr rfl fun e _ => hlo e

/-- At the padded edge list: a sum over the 1015808 padded edges whose 15808 padding terms are 0 is the sum over the
    1000000 edges as given. -/
theorem sum_pad_eq {M : Type*} [AddCommMonoid M] (f : Fin 1015808 → M) (g : Fin 1000000 → M)
    (hlo : ∀ e : Fin 1000000, f ⟨e.val, by omega⟩ = g e) (hhi : ∀ e : Fin 15808, f ⟨1000000 + e.val, by omega⟩ = 0) :
    ∑ e, f e = ∑ e, g e :=
  sum_tail_zero 1000000 15808 f g hlo hhi

/-! ## The two steps agree; the mean by 1/3 is the quotient by 3 -/

/-- One propagation step over the zero-padded edge list is the step over the edge list as given, for ANY node table:
    a padding edge has weight 0, so its message is 0 · (a row) = 0 on the extended reals, and adding 0 changes nothing. -/
theorem step_eq (T : FVec Ideal Cert.KernelIdeal.S100000x112 .f32) (x1 : FVec Ideal Cert.KernelIdeal.S1000000 .f32)
    (x2 x3 : IVec Cert.KernelIdeal.S1000000 32) :
    Cert.Terms.K.step T x1 x2 x3 = Cert.Terms.R.step T x1 x2 x3 := by
  funext i
  obtain ⟨n, j, rfl⟩ : ∃ (n : Fin 100000) (j : Fin 112), i = ix2 n j := ⟨i 0, i 1, eq_ix2 i⟩
  refine (K_step_apply T x1 x2 x3 n j).trans (Eq.trans ?_ (R_step_apply T x1 x2 x3 n j).symm)
  refine congrArg₂ (· + ·) rfl (sum_pad_eq _ _ (fun e => ?_) (fun e => ?_))
  · beta_reduce
    rw [padW_lo, padW_lo, padF_lo]
  · beta_reduce
    rw [padF_hi, zero_mul, ite_self]

/-- The pattern 0x40400000 is the float 3. -/
theorem ofBits_three : Ideal.ofBits .f32 0x40400000#32 = ((3 : ℝ) : EReal) := by
  simp [Ideal.ofBits, Ideal.ieee, -EReal.coe_mul]; norm_num

/-- The mean of three tables by the factor 1/3 is their sum's quotient by the float 3. -/
theorem mean3_eq (e c1 c2 : FVec Ideal Cert.ReferenceIdeal.S100000x112 .f32) :
    Cert.Terms.mean3 e c1 c2
      = Host.divf (F := Ideal) (addf (addf e c1) c2)
          (broadcastInDim Cert.ReferenceIdeal.S100000x112 ![] Cert.ReferenceIdeal.Gen.bcast_S_S100000x112
            (constant (F := Ideal) Cert.ReferenceIdeal.S_ .f32 0x40400000#32)) := by
  funext i
  simp only [Cert.Terms.mean3, Host.divf, addf, broadcastInDim, constant, Ideal.hostDivf_def, Ideal.addf_def,
    Ideal.ofBits_def, ofBits_three, Ideal.div_coe (by norm_num : (3 : ℝ) ≠ 0)]

end Cert.Bridge

end
-- ==== Proof.SessBridge.lean ====
/-
  The session stage of the first program's last kernel is the second program's chain of host operations.
-/
import proofs.«153129_j82102594830932_1_alg».proof.Proof.Gen.KernelIdeal.Frame
import proofs.«153129_j82102594830932_1_alg».proof.Proof.Terms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

open Cert.KernelIdeal in
/-- A matrix unit product into the zero accumulator is the host's product of operands that agree entry by entry
    (whatever float formats the operands are tagged with: on the extended reals a format change is the identity). -/
theorem mm_eq {sl sr so : Shape} {φ₁ φ₂ φ₃ φ₄ : FTy} (D D' : DotDims sl sr so) (hD : D = D')
    (l : FVec Ideal sl φ₁) (r : FVec Ideal sr φ₂) (l' : FVec Ideal sl φ₃) (r' : FVec Ideal sr φ₄)
    (hl : ∀ i, l i = l' i) (hr : ∀ i, r i = r' i) :
    matmul (F := Ideal) D none l r (constant (F := Ideal) so .f32 0x00000000#32)
      = Host.dotGeneral (F := Ideal) D' none l' r' := by
  subst hD
  funext j
  simp only [matmul, Host.dotGeneral]
  rw [Ideal.matmul_constant_zero_apply, Ideal.dotGeneral_apply]
  exact Finset.sum_congr rfl fun k _ => by rw [hl, hr]

open Cert.KernelIdeal in
/-- A load through the unit-stride rectangle of one slab of the weights is the slice at the rectangle's offsets. -/
theorem ld_slab (off : Fin 3 → Nat) (w : Vec Ideal S2x112x112 .f32)
    (inb : ∀ a, off a + S1x112x112.size a ≤ S2x112x112.size a) (hs : S2x112x112.Slices off S1x112x112) :
    View.ld (Val := Elt Ideal) w (Rect.unit (s := S2x112x112) off S1x112x112.size inb)
      = extractStridedSlice S1x112x112 off w hs := by
  funext x
  refine (extractStridedSlice_apply off w hs x _ fun a => ?_).symm
  show off a + 1 * (x a).val = off a + (x (a.cast _)).val
  rw [Nat.one_mul]; rfl

section Column
open Cert.KernelIdeal
variable {α : Type}

/-- A column spread over the lanes reads, at (p, q), the column at (p, 0). -/
theorem bto_col (v : S512x1.Idx → α) (hb : S512x1.Broadcasts S512x112) (p : Fin 512) (q : Fin 112) :
    broadcastTo S512x112 v hb (ix2 p q) = v (ix2 p (0 : Fin 1)) :=
  broadcastTo_apply v hb (ix2 p q) (ix2 p (0 : Fin 1)) fun a => by
    match a with
    | ⟨0, _⟩ => rfl
    | ⟨1, _⟩ => rfl

/-- The host's spread of a column over the lanes likewise. -/
theorem bid_col (v : S512x1.Idx → α) (h : S512x1.BroadcastsInDim S512x112 ![0, 1]) (p : Fin 512) (q : Fin 112) :
    broadcastInDim S512x112 ![0, 1] h v (ix2 p q) = v (ix2 p (0 : Fin 1)) :=
  broadcastInDim_apply ![0, 1] h v (ix2 p q) (ix2 p (0 : Fin 1)) fun a => by
    match a with
    | ⟨0, _⟩ => rfl
    | ⟨1, _⟩ => rfl

/-- A vector recast as a column reads, at (p, 0), the vector at p. -/
theorem sc_col (v : S512.Idx → α) (hc : S512.ShapeCasts S512x1) (p : Fin 512) :
    shapeCast S512x1 v hc (ix2 p (0 : Fin 1)) = v (ix1 p) :=
  shapeCast_apply v hc (ix2 p (0 : Fin 1)) (ix1 p) (by
    rw [Shape.rowMajor_val_one, Shape.rowMajor_val_two]
    show p.val = p.val * 1 + 0
    omega)

/-- The host's placement of a vector as a column likewise. -/
theorem bid_row (v : S512.Idx → α) (h : S512.BroadcastsInDim S512x1 ![0]) (p : Fin 512) :
    broadcastInDim S512x1 ![0] h v (ix2 p (0 : Fin 1)) = v (ix1 p) :=
  broadcastInDim_apply ![0] h v (ix2 p (0 : Fin 1)) (ix1 p) fun a => by
    match a with
    | ⟨0, _⟩ => rfl

end Column

open Cert.KernelIdeal in
/-- Each row over the larger of its Euclidean length and ε: the lane sum of squares, recast as a column, its root, the
    maximum with ε and the division by the column spread over the lanes are the host's sum from zero, its spreads, its
    root, its maximum and its division, entry by entry. -/
theorem unit_eq (y : FVec Ideal S512x112 .f32) (hr : S512x112.Reduces [1] S512) (hφ : FKind.Formats .f32)
    (hacc : (0x00000000#32 : BitVec (FTy.bits .f32)) = FKind.add.neutral .f32 hφ) (hc : S512.ShapeCasts S512x1)
    (hb : S512x1.Broadcasts S512x112) :
    divf y (broadcastTo S512x112 (maximumf (sqrt (shapeCast S512x1
        (multiReduction (F := Ideal) .add [1] S512 (mulf y y) 0x00000000#32 hr hφ hacc) hc))
        (broadcast S512x1 (Scalar.ofBits (F := Ideal) .f32 0x2B8CBCCC#32))) hb)
      = Cert.Terms.R.unitRows y := by
  funext j
  obtain ⟨p, q, rfl⟩ : ∃ (p : Fin 512) (q : Fin 112), j = ix2 p q := ⟨j 0, j 1, eq_ix2 j⟩
  unfold Cert.Terms.R.unitRows
  show Ideal.div (y (ix2 p q)) (broadcastTo S512x112 _ hb (ix2 p q))
    = Ideal.div (y (ix2 p q)) (broadcastInDim (s := S512x1) S512x112 ![0, 1] _ _ (ix2 p q))
  rw [bto_col, bid_col]
  show Ideal.div _ (max (Ideal.sqrt (shapeCast S512x1 _ hc (ix2 p (0 : Fin 1)))) (Ideal.ofBits .f32 0x2B8CBCCC#32))
    = Ideal.div _ (max (Ideal.sqrt (broadcastInDim (s := S512) S512x1 ![0] _ _ (ix2 p (0 : Fin 1)))) (Ideal.ofBits .f32 0x2B8CBCCC#32))
  rw [sc_col, bid_row]
  rw [Ideal.multiReduction_add_single]
  show _ = Ideal.div _ (max (Ideal.sqrt (Ideal.hostReduceAdd Cert.ReferenceIdeal.Gen.reducesTo_S512x112_S512_d1 (mulf y y)
    (Ideal.ofBits .f32 0x00000000#32) (ix1 p))) _)
  rw [Ideal.hostReduceAdd_single _ hr, Ideal.ofBits_zero_f32, zero_add]

/-- The bit pattern 0x40400000 denotes the real 3. -/
theorem ofBits_three : Ideal.ofBits .f32 0x40400000#32 = ((3 : ℝ) : EReal) := by
  simp [Ideal.ofBits, Ideal.ieee, -EReal.coe_mul]; norm_num

/-- The named constant is the rational 1/3. -/
theorem inv_3 : Named.named (F := Ideal) Cert.KernelIdeal.κ "inv_3" (φ := .f32) 0x3EAAAAAB#32 = ((1 / 3 : ℝ) : EReal) :=
  IdealRules.named_const.ideal_named_scalar _ _ _ _ rfl

open Cert.KernelIdeal in
/-- The product with the named 1/3 is the host's quotient by 3, on every extended real. -/
theorem third_eq (v : FVec Ideal S512x112 .f32) (h : S_.BroadcastsInDim S512x112 ![]) :
    mulf v (broadcast S512x112 (Named.named (F := Ideal) κ "inv_3" (φ := .f32) 0x3EAAAAAB#32))
      = Host.divf (F := Ideal) v (broadcastInDim S512x112 ![] h (constant (F := Ideal) S_ .f32 0x40400000#32)) := by
  funext i
  show v i * Named.named (F := Ideal) κ "inv_3" (φ := .f32) 0x3EAAAAAB#32 = Ideal.div (v i) (Ideal.ofBits .f32 0x40400000#32)
  rw [inv_3, ofBits_three, Ideal.div_coe (by norm_num : (3 : ℝ) ≠ 0)]

open Cert.KernelIdeal in
/-- The last two steps over variables: the second round's rows made unit, added on, and the mean taken. -/
theorem tail_eq (A X : FVec Ideal S512x112 .f32) (hr : S512x112.Reduces [1] S512) (hφ : FKind.Formats .f32)
    (hacc : (0x00000000#32 : BitVec (FTy.bits .f32)) = FKind.add.neutral .f32 hφ) (hc : S512.ShapeCasts S512x1)
    (hb : S512x1.Broadcasts S512x112) (h : S_.BroadcastsInDim S512x112 ![]) :
    mulf (addf A (divf X (broadcastTo S512x112 (maximumf (sqrt (shapeCast S512x1
        (multiReduction (F := Ideal) .add [1] S512 (mulf X X) 0x00000000#32 hr hφ hacc) hc))
        (broadcast S512x1 (Scalar.ofBits (F := Ideal) .f32 0x2B8CBCCC#32))) hb)))
      (broadcast S512x112 (Named.named (F := Ideal) κ "inv_3" (φ := .f32) 0x3EAAAAAB#32))
      = Host.divf (F := Ideal) (addf A (Cert.Terms.R.unitRows X))
          (broadcastInDim S512x112 ![] h (constant (F := Ideal) S_ .f32 0x40400000#32)) := by
  rw [unit_eq]
  exact third_eq _ _

section Payloads
open Cert.KernelIdeal Cert.KernelIdeal.Gen

/-- The product D·A, kept in the narrower format, is the host's product. -/
theorem pay2_eq (d a : FVec Ideal S512x512 .f32) (i : S512x512.Idx) :
    k3_pay2 (F := Ideal) d a i
      = Host.dotGeneral (F := Ideal) Cert.ReferenceIdeal.dot_S512x512_S512x512_S512x512_1_0_0_1_n_n none d a i := by
  show matmul (F := Ideal) dot_S512x512_S512x512_S512x512_1_0_0_1_n_n none (truncf .bf16 d bitsLt_bf16_f32)
    (truncf .bf16 a bitsLt_bf16_f32) (constant (F := Ideal) S512x512 .f32 0x00000000#32) i = _
  exact congrFun (mm_eq _ _ rfl _ _ d a (fun _ => rfl) (fun _ => rfl)) i

/-- The start vectors recast to their own shape are themselves. -/
theorem pay3_eq (s : FVec Ideal S512x112 .f32) : k3_pay3 (F := Ideal) s = s := by
  unfold k3_pay3; exact shapeCast_self s _

/-- One round of the first program on a loaded slab: the host's round on the slab's transposed matrix. -/
theorem pay4_eq (d a : FVec Ideal S512x512 .f32) (s : FVec Ideal S512x112 .f32) (v8 : FVec Ideal S1x112x112 .f32)
    (wT : FVec Ideal S112x112 .f32)
    (hw : ∀ i, transpose S112x112 [1, 0] (shapeCast S112x112 v8 shapeCasts_S1x112x112_S112x112)
      transposes_S112x112_p1_0_S112x112 i = wT i) :
    k3_pay4 (F := Ideal) d a s v8
      = Cert.Terms.R.round (Host.dotGeneral (F := Ideal) Cert.ReferenceIdeal.dot_S512x512_S512x512_S512x512_1_0_0_1_n_n none d a) s wT := by
  have e13 : matmul (F := Ideal) dot_S512x112_S112x112_S512x112_1_0_0_1_n_n none
      (truncf .bf16 (k3_pay3 (F := Ideal) s) bitsLt_bf16_f32)
      (transpose S112x112 [1, 0] (truncf .bf16 (shapeCast S112x112 v8 shapeCasts_S1x112x112_S112x112) bitsLt_bf16_f32)
        transposes_S112x112_p1_0_S112x112)
      (constant (F := Ideal) S512x112 .f32 0x00000000#32)
      = Host.dotGeneral (F := Ideal) Cert.ReferenceIdeal.dot_S512x112_S112x112_S512x112_1_0_0_1_n_n none s wT :=
    mm_eq _ _ rfl _ _ s wT (fun i => congrFun (pay3_eq s) i) hw
  have e15 : matmul (F := Ideal) dot_S512x512_S512x112_S512x112_1_0_0_1_n_n none (k3_pay2 (F := Ideal) d a)
      (truncf .bf16 (matmul (F := Ideal) dot_S512x112_S112x112_S512x112_1_0_0_1_n_n none
        (truncf .bf16 (k3_pay3 (F := Ideal) s) bitsLt_bf16_f32)
        (transpose S112x112 [1, 0] (truncf .bf16 (shapeCast S112x112 v8 shapeCasts_S1x112x112_S112x112) bitsLt_bf16_f32)
          transposes_S112x112_p1_0_S112x112)
        (constant (F := Ideal) S512x112 .f32 0x00000000#32)) bitsLt_bf16_f32)
      (constant (F := Ideal) S512x112 .f32 0x00000000#32)
      = Host.dotGeneral (F := Ideal) Cert.ReferenceIdeal.dot_S512x512_S512x112_S512x112_1_0_0_1_n_n none
          (Host.dotGeneral (F := Ideal) Cert.ReferenceIdeal.dot_S512x512_S512x512_S512x512_1_0_0_1_n_n none d a)
          (Host.dotGeneral (F := Ideal) Cert.ReferenceIdeal.dot_S512x112_S112x112_S512x112_1_0_0_1_n_n none s wT) :=
    mm_eq _ _ rfl _ _ _ _ (fun i => pay2_eq d a i) (fun i => congrFun e13 i)
  unfold k3_pay4 Cert.Terms.R.round
  dsimp only
  rw [e15]
  exact unit_eq _ _ _ _ _ _

/-- The start vectors plus the first round. -/
theorem pay5_eq (d a : FVec Ideal S512x512 .f32) (s : FVec Ideal S512x112 .f32) (v8 : FVec Ideal S1x112x112 .f32)
    (wT : FVec Ideal S112x112 .f32)
    (hw : ∀ i, transpose S112x112 [1, 0] (shapeCast S112x112 v8 shapeCasts_S1x112x112_S112x112)
      transposes_S112x112_p1_0_S112x112 i = wT i) :
    k3_pay5 (F := Ideal) d a s v8
      = addf s (Cert.Terms.R.round (Host.dotGeneral (F := Ideal) Cert.ReferenceIdeal.dot_S512x512_S512x512_S512x512_1_0_0_1_n_n none d a) s wT) := by
  unfold k3_pay5
  dsimp only
  rw [pay3_eq, pay4_eq d a s v8 wT hw]

/-- The second round's product with D·A, before its rows are made unit. -/
theorem pay6_eq (d a : FVec Ideal S512x512 .f32) (s : FVec Ideal S512x112 .f32) (v8 v25 : FVec Ideal S1x112x112 .f32)
    (wT0 wT1 : FVec Ideal S112x112 .f32)
    (hw0 : ∀ i, transpose S112x112 [1, 0] (shapeCast S112x112 v8 shapeCasts_S1x112x112_S112x112)
      transposes_S112x112_p1_0_S112x112 i = wT0 i)
    (hw1 : ∀ i, transpose S112x112 [1, 0] (shapeCast S112x112 v25 shapeCasts_S1x112x112_S112x112)
      transposes_S112x112_p1_0_S112x112 i = wT1 i) :
    k3_pay6 (F := Ideal) d a s v8 v25
      = Host.dotGeneral (F := Ideal) Cert.ReferenceIdeal.dot_S512x512_S512x112_S512x112_1_0_0_1_n_n none
          (Host.dotGeneral (F := Ideal) Cert.ReferenceIdeal.dot_S512x512_S512x512_S512x512_1_0_0_1_n_n none d a)
          (Host.dotGeneral (F := Ideal) Cert.ReferenceIdeal.dot_S512x112_S112x112_S512x112_1_0_0_1_n_n none
            (Cert.Terms.R.round (Host.dotGeneral (F := Ideal) Cert.ReferenceIdeal.dot_S512x512_S512x512_S512x512_1_0_0_1_n_n none d a) s wT0)
            wT1) := by
  have e30 : matmul (F := Ideal) dot_S512x112_S112x112_S512x112_1_0_0_1_n_n none
      (truncf .bf16 (k3_pay4 (F := Ideal) d a s v8) bitsLt_bf16_f32)
      (transpose S112x112 [1, 0] (truncf .bf16 (shapeCast S112x112 v25 shapeCasts_S1x112x112_S112x112) bitsLt_bf16_f32)
        transposes_S112x112_p1_0_S112x112)
      (constant (F := Ideal) S512x112 .f32 0x00000000#32)
      = Host.dotGeneral (F := Ideal) Cert.ReferenceIdeal.dot_S512x112_S112x112_S512x112_1_0_0_1_n_n none
          (Cert.Terms.R.round (Host.dotGeneral (F := Ideal) Cert.ReferenceIdeal.dot_S512x512_S512x512_S512x512_1_0_0_1_n_n none d a) s wT0)
          wT1 :=
    mm_eq _ _ rfl _ _ _ wT1 (fun i => congrFun (pay4_eq d a s v8 wT0 hw0) i) hw1
  unfold k3_pay6
  dsimp only
  exact mm_eq _ _ rfl _ _ _ _ (fun i => pay2_eq d a i) (fun i => congrFun e30 i)

/-- The whole body: the mean of the start vectors and the two rounds. -/
theorem pay1_eq (d a : FVec Ideal S512x512 .f32) (s : FVec Ideal S512x112 .f32) (v8 v25 : FVec Ideal S1x112x112 .f32)
    (wT0 wT1 : FVec Ideal S112x112 .f32)
    (hw0 : ∀ i, transpose S112x112 [1, 0] (shapeCast S112x112 v8 shapeCasts_S1x112x112_S112x112)
      transposes_S112x112_p1_0_S112x112 i = wT0 i)
    (hw1 : ∀ i, transpose S112x112 [1, 0] (shapeCast S112x112 v25 shapeCasts_S1x112x112_S112x112)
      transposes_S112x112_p1_0_S112x112 i = wT1 i) :
    k3_pay1 (F := Ideal) (k3_pay5 (F := Ideal) d a s v8) (k3_pay6 (F := Ideal) d a s v8 v25)
        (k3_pay7 (F := Ideal) d a s v8 v25) (k3_pay8 (F := Ideal))
      = Host.divf (F := Ideal)
          (addf (addf s (Cert.Terms.R.round (Host.dotGeneral (F := Ideal) Cert.ReferenceIdeal.dot_S512x512_S512x512_S512x512_1_0_0_1_n_n none d a) s wT0))
            (Cert.Terms.R.round (Host.dotGeneral (F := Ideal) Cert.ReferenceIdeal.dot_S512x512_S512x512_S512x512_1_0_0_1_n_n none d a)
              (Cert.Terms.R.round (Host.dotGeneral (F := Ideal) Cert.ReferenceIdeal.dot_S512x512_S512x512_S512x512_1_0_0_1_n_n none d a) s wT0) wT1))
          (broadcastInDim Cert.ReferenceIdeal.S512x112 ![] Cert.ReferenceIdeal.Gen.bcast_S_S512x112
            (constant (F := Ideal) Cert.ReferenceIdeal.S_ .f32 0x40400000#32)) := by
  unfold k3_pay1 k3_pay7 k3_pay8
  dsimp only
  rw [pay6_eq d a s v8 v25 wT0 wT1 hw0 hw1, pay5_eq d a s v8 wT0 hw0]
  exact tail_eq _ _ _ _ _ _ _ _

end Payloads

/-- What the session kernel's body leaves in its output block, from the whole arrays it loads, is the host chain
    (s + r₁ + r₂) / 3 of the same arrays: a change of float format is the identity, a matrix unit product into the zero
    accumulator is the host's product, a lane sum is the host's sum, and the factor 1/3 is the quotient by 3. -/
theorem sess_eq (s : FVec Ideal Cert.KernelIdeal.S512x112 .f32) (d a : FVec Ideal Cert.KernelIdeal.S512x512 .f32)
    (w : FVec Ideal Cert.KernelIdeal.S2x112x112 .f32) :
    Cert.KernelIdeal.Gen.out3_4 (F := Ideal) s d a w = Cert.Terms.R.sess s d a w := by
  have hz : (![0, 0] : Fin 2 → Nat) = fun _ => 0 := funext fun a => by fin_cases a <;> rfl
  have hd : View.ld (Val := Elt Ideal) (e' := .f32) d Cert.KernelIdeal.Gen.r3_0 = d :=
    View.ld_unit_zero (Val := Elt Ideal) (e := .f32) (S := Cert.KernelIdeal.S512x512) hz _ d
  have ha : View.ld (Val := Elt Ideal) (e' := .f32) a Cert.KernelIdeal.Gen.r3_0 = a :=
    View.ld_unit_zero (Val := Elt Ideal) (e := .f32) (S := Cert.KernelIdeal.S512x512) hz _ a
  have hs : View.ld (Val := Elt Ideal) (e' := .f32) s Cert.KernelIdeal.Gen.r3_1 = s :=
    View.ld_unit_zero (Val := Elt Ideal) (e := .f32) (S := Cert.KernelIdeal.S512x112) hz _ s
  have h0 := ld_slab ![0, 0, 0] w Cert.KernelIdeal.Gen.inb_S2x112x112_S1x112x112_0_0_0
    Cert.ReferenceIdeal.Gen.slices_S2x112x112_S1x112x112_0_0_0
  have h1 := ld_slab ![1, 0, 0] w Cert.KernelIdeal.Gen.inb_S2x112x112_S1x112x112_1_0_0
    Cert.ReferenceIdeal.Gen.slices_S2x112x112_S1x112x112_1_0_0
  unfold Cert.KernelIdeal.Gen.out3_4 Cert.Terms.R.sess
  rw [View.canon_unit_zero hz, hd, ha, hs]
  exact pay1_eq d a s _ _ (Cert.Terms.R.wT0 w) (Cert.Terms.R.wT1 w)
    (fun i => by rw [h0]; rfl) (fun i => by rw [h1]; rfl)

end Cert.Bridge

end
-- ==== Proof.lean ====
/-
  The certificate: the zero-padded, blocked program and the plain one compute the same session embeddings on the
  extended reals.

  Both programs propagate the item embedding twice over the hypergraph — a step sends row cols[e] of the table, scaled
  by vals[e], to row rows[e] and sums what arrives —, average the embedding with the two propagated copies, pool each
  session's item rows over its length, and run two rounds of (linear map, product with D·A, rows divided by the larger
  of their Euclidean length and ε), averaging the start vectors with the two rounds' results. The first program pads
  the edge list with zero-weight edges 0 → 0 to 62 blocks of 16384, runs the message product and the two means in
  blocked regions, multiplies by the named constant 1/3 where the second divides by 3, and passes through a narrower
  float format that is the identity on the extended reals. A padding edge's message is 0 · (a row) = 0 and adding 0
  changes nothing, so the padded step is the step (for any table, no finiteness asked); x · (1/3) = x / 3 on every
  extended real; a matrix-unit product into the zero accumulator is the host's product and a lane sum the host's sum.
  The precondition is never opened.
-/
import proofs.«153129_j82102594830932_1_alg».proof.Defs
import proofs.«153129_j82102594830932_1_alg».proof.Proof.Gen.Kernel
import proofs.«153129_j82102594830932_1_alg».proof.Proof.Gen.Kernel.Skeleton
import proofs.«153129_j82102594830932_1_alg».proof.Proof.Gen.Kernel.Launch
import proofs.«153129_j82102594830932_1_alg».proof.Proof.Gen.Kernel.Points
import proofs.«153129_j82102594830932_1_alg».proof.Proof.Gen.Kernel.Frame
import proofs.«153129_j82102594830932_1_alg».proof.Proof.Gen.KernelIdeal
import proofs.«153129_j82102594830932_1_alg».proof.Proof.Gen.KernelIdeal.Skeleton
import proofs.«153129_j82102594830932_1_alg».proof.Proof.Gen.KernelIdeal.Launch
import proofs.«153129_j82102594830932_1_alg».proof.Proof.Gen.KernelIdeal.Points
import proofs.«153129_j82102594830932_1_alg».proof.Proof.Gen.KernelIdeal.Frame
import proofs.«153129_j82102594830932_1_alg».proof.Proof.Gen.ReferenceIdeal
import proofs.«153129_j82102594830932_1_alg».proof.Proof.Gen.Pre_finite_inputs
import proofs.«153129_j82102594830932_1_alg».proof.Proof.Gen.ReferenceIdeal.Run
import proofs.«153129_j82102594830932_1_alg».proof.Proof.Gen.ReferenceIdeal.Read
import Idealize.ShloMosaic.Adequacy
import Idealize.ShloMosaic.Init

import proofs.«153129_j82102594830932_1_alg».proof.Proof.KernelRun
import proofs.«153129_j82102594830932_1_alg».proof.Proof.KernelValue
import proofs.«153129_j82102594830932_1_alg».proof.Proof.RefValue
import proofs.«153129_j82102594830932_1_alg».proof.Proof.StepBridge
import proofs.«153129_j82102594830932_1_alg».proof.Proof.SessBridge

set_option maxRecDepth 16384

noncomputable section

namespace Cert.Proof

open Idealize.ShloMosaic Idealize.SL.Sem Cert.Terms

/-! ## The two programs' terms are one function of the arguments -/

/-- The first program's result term — the session kernel's output block over the start vectors pooled from the mean of
    the embedding and its two copies propagated over the PADDED edge list — is the second program's last stage. -/
theorem result_bridge (x0 : FVec Ideal Cert.KernelIdeal.S100000x112 .f32) (x1 : FVec Ideal Cert.KernelIdeal.S1000000 .f32)
    (x2 x3 : IVec Cert.KernelIdeal.S1000000 32) (x4 x5 : FVec Ideal Cert.KernelIdeal.S512x512 .f32)
    (x6 : IVec Cert.KernelIdeal.S512x50 32) (x7 : FVec Ideal Cert.KernelIdeal.S512x1 .f32)
    (x8 : FVec Ideal Cert.KernelIdeal.S2x112x112 .f32) :
    Cert.KernelIdeal.Gen.out3_4 (F := Ideal)
        (K.pool (mean3 x0 (K.step x0 x1 x2 x3) (K.step (K.step x0 x1 x2 x3) x1 x2 x3)) x6 x7) x4 x5 x8
      = Cert.ReferenceIdeal.Read.val_main_v66 (F := Ideal) x0 x1 x2 x3 x4 x5 x6 x7 x8 := by
  rw [Cert.ReferenceIdeal.RefValue.result_eq, Cert.Bridge.sess_eq, Cert.Bridge.step_eq, Cert.Bridge.step_eq,
    Cert.Bridge.mean3_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The second program has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The constant 1/3 is named at its two sites, the mean of the three tables and the mean of the three session vectors:
    at the extended reals the name is the rational. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- From memories that agree on the arguments both programs end with the same result array: the first program's run
    ends at its term of the arguments, the second's at its last stage, and the two are one function. -/
theorem algebraic : Cert.algebraic_KernelIdeal_ReferenceIdeal := by
  intro m ρ m' ρ' _ hagree
  refine ⟨fun c => Cert.KernelIdeal.Gen.out3_4 (F := Ideal)
      (K.pool (mean3 (m ((c.tc : Thread Cert.KernelIdeal.nD Cert.KernelIdeal.τ).loc Cert.KernelIdeal.main_arg0)) (K.step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (K.step (K.step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v66_eq, e0, e1, e2, e3, e4, e5, e6, e7, e8]
    exact (result_bridge _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
